-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x32 : Shape := ⟨4, ![4, 64, 256, 32]⟩
abbrev S32000x1024 : Shape := ⟨2, ![32000, 1024]⟩
abbrev S256x32000 : Shape := ⟨2, ![256, 32000]⟩
abbrev S32000 : Shape := ⟨1, ![32000]⟩
abbrev S_ : Shape := ⟨0, ![]⟩

class Facts : Prop where
  bcast_S_S4x64x256x32 : S_.BroadcastsInDim S4x64x256x32 (![] : Fin 0 → Fin S4x64x256x32.rank)
  reducesTo_S4x64x256x32_S_d0_1_2_3 : S4x64x256x32.ReducesTo [0, 1, 2, 3] S_
  h_S_ : 0 < S_.numel
  bcast_S_S32000x1024 : S_.BroadcastsInDim S32000x1024 (![] : Fin 0 → Fin S32000x1024.rank)
  reducesTo_S32000x1024_S_d0_1 : S32000x1024.ReducesTo [0, 1] S_
  bcast_S_S256x32000 : S_.BroadcastsInDim S256x32000 (![] : Fin 0 → Fin S256x32000.rank)
  reducesTo_S256x32000_S_d0_1 : S256x32000.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  main_v18

def fn {F : FTy → Type} [FloatOps F] (main_arg0 : FVec F S4x64x256x32 .f32) (main_arg1 : FVec F S32000x1024 .f32) (main_arg2 : FVec F S256x32000 .f32) (main_arg3 : FVec F S32000 .f32) : IVec S_ 1 :=
  let main_v0 : FVec F S4x64x256x32 .f32 := Host.absf main_arg0
  let main_cst : FVec F S_ .f32 := constant S_ .f32 0x7F800000#32
  let main_v1 : FVec F S4x64x256x32 .f32 := broadcastInDim S4x64x256x32 ![] bcast_S_S4x64x256x32 main_cst
  let main_v2 : IVec S4x64x256x32 1 := cmpf .olt main_v0 main_v1
  let main_c : IVec S_ 1 := constantI S_ 1 1#1
  let main_v3 : IVec S_ 1 := (fun x v => Host.reduce IntOp.andi x v reducesTo_S4x64x256x32_S_d0_1_2_3 h_S_) main_v2 main_c
  let main_v4 : FVec F S32000x1024 .f32 := Host.absf main_arg1
  let main_cst_0 : FVec F S_ .f32 := constant S_ .f32 0x7F800000#32
  let main_v5 : FVec F S32000x1024 .f32 := broadcastInDim S32000x1024 ![] bcast_S_S32000x1024 main_cst_0
  let main_v6 : IVec S32000x1024 1 := cmpf .olt main_v4 main_v5
  let main_c_1 : IVec S_ 1 := constantI S_ 1 1#1
  let main_v7 : IVec S_ 1 := (fun x v => Host.reduce IntOp.andi x v reducesTo_S32000x1024_S_d0_1 h_S_) main_v6 main_c_1
  let main_v8 : IVec S_ 1 := andi main_v3 main_v7
  let main_v9 : FVec F S256x32000 .f32 := Host.absf main_arg2
  let main_cst_2 : FVec F S_ .f32 := constant S_ .f32 0x7F800000#32
  let main_v10 : FVec F S256x32000 .f32 := broadcastInDim S256x32000 ![] bcast_S_S256x32000 main_cst_2
  let main_v11 : IVec S256x32000 1 := cmpf .olt main_v9 main_v10
  let main_c_3 : IVec S_ 1 := constantI S_ 1 1#1
  let main_v12 : IVec S_ 1 := (fun x v => Host.reduce IntOp.andi x v reducesTo_S256x32000_S_d0_1 h_S_) main_v11 main_c_3
  let main_v13 : IVec S_ 1 := andi main_v8 main_v12
  let main_v14 : FVec F S32000 .f32 := Host.absf main_arg3
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_v13 main_v16
-- ==== Kernel.lean ====
abbrev S4x64x256x32 : Shape := ⟨4, ![4, 64, 256, 32]⟩
abbrev S32000x1024 : Shape := ⟨2, ![32000, 1024]⟩
abbrev S256x32000 : Shape := ⟨2, ![256, 32000]⟩
abbrev S32000 : Shape := ⟨1, ![32000]⟩
abbrev S4x32x64x256 : Shape := ⟨4, ![4, 32, 64, 256]⟩
abbrev S4x2048x256 : Shape := ⟨3, ![4, 2048, 256]⟩
abbrev S8192x256 : Shape := ⟨2, ![8192, 256]⟩
abbrev S1x32000 : Shape := ⟨2, ![1, 32000]⟩
abbrev S8192x1024 : Shape := ⟨2, ![8192, 1024]⟩
abbrev S2048x256 : Shape := ⟨2, ![2048, 256]⟩
abbrev S256x640 : Shape := ⟨2, ![256, 640]⟩
abbrev S1x640 : Shape := ⟨2, ![1, 640]⟩
abbrev S640x1024 : Shape := ⟨2, ![640, 1024]⟩
abbrev S2048x1024 : Shape := ⟨2, ![2048, 1024]⟩
abbrev S2048x1 : Shape := ⟨2, ![2048, 1]⟩
abbrev S2048x640 : Shape := ⟨2, ![2048, 640]⟩
abbrev S2048 : Shape := ⟨1, ![2048]⟩
abbrev S4x2048x1024 : Shape := ⟨3, ![4, 2048, 1024]⟩

abbrev nBuf : Space → Nat
  | .hbm => 13
  | .vmem => 12
  | .smem => 0
  | _ => 0

abbrev bufTy : (tb : Table) → Fin (tcTables nBuf tb) → BufTy
  | .hbm, ⟨0, _⟩ => ⟨S4x64x256x32, .f32⟩
  | .hbm, ⟨1, _⟩ => ⟨S32000x1024, .f32⟩
  | .hbm, ⟨2, _⟩ => ⟨S256x32000, .f32⟩
  | .hbm, ⟨3, _⟩ => ⟨S32000, .f32⟩
  | .hbm, ⟨4, _⟩ => ⟨S4x32x64x256, .f32⟩
  | .hbm, ⟨5, _⟩ => ⟨S4x2048x256, .f32⟩
  | .hbm, ⟨6, _⟩ => ⟨S8192x256, .f32⟩
  | .hbm, ⟨7, _⟩ => ⟨S8192x256, .bf16⟩
  | .hbm, ⟨8, _⟩ => ⟨S256x32000, .bf16⟩
  | .hbm, ⟨9, _⟩ => ⟨S32000x1024, .bf16⟩
  | .hbm, ⟨10, _⟩ => ⟨S1x32000, .f32⟩
  | .hbm, ⟨11, _⟩ => ⟨S8192x1024, .f32⟩
  | .hbm, ⟨12, _⟩ => ⟨S4x2048x1024, .f32⟩
  | .local _ .vmem, ⟨0, _⟩ => ⟨S2048x256, .bf16⟩
  | .local _ .vmem, ⟨1, _⟩ => ⟨S2048x256, .bf16⟩
  | .local _ .vmem, ⟨2, _⟩ => ⟨S256x640, .bf16⟩
  | .local _ .vmem, ⟨3, _⟩ => ⟨S256x640, .bf16⟩
  | .local _ .vmem, ⟨4, _⟩ => ⟨S1x640, .f32⟩
  | .local _ .vmem, ⟨5, _⟩ => ⟨S1x640, .f32⟩
  | .local _ .vmem, ⟨6, _⟩ => ⟨S640x1024, .bf16⟩
  | .local _ .vmem, ⟨7, _⟩ => ⟨S640x1024, .bf16⟩
  | .local _ .vmem, ⟨8, _⟩ => ⟨S2048x1024, .f32⟩
  | .local _ .vmem, ⟨9, _⟩ => ⟨S2048x1024, .f32⟩
  | .local _ .vmem, ⟨10, _⟩ => ⟨S2048x1, .f32⟩
  | .local _ .vmem, ⟨11, _⟩ => ⟨S2048x1, .f32⟩
  | _, _ => ⟨S4x64x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S640x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S4x64x256x32_S4x32x64x256_0_3_1_2 : S4x64x256x32.Transposes [0, 3, 1, 2] S4x32x64x256
  shapeCasts_S4x32x64x256_S4x2048x256 : S4x32x64x256.ShapeCasts S4x2048x256
  shapeCasts_S4x2048x256_S8192x256 : S4x2048x256.ShapeCasts S8192x256
  bitsLt_bf16_f32 : FTy.bits .bf16 < FTy.bits .f32
  shapeCasts_S32000_S1x32000 : S32000.ShapeCasts S1x32000
  inb_S2048x1024_S2048x1024_0_0 : ∀ a, (![0, 0] : Fin 2 → Nat) a + S2048x1024.size a ≤ S2048x1024.size a
  h_S2048x1024 : 0 < S2048x1024.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x640_S256x640_0_0 : ∀ a, (![0, 0] : Fin 2 → Nat) a + S256x640.size a ≤ S256x640.size a
  h_S256x640 : 0 < S256x640.numel
  shapeCasts_S256x640_S256x640 : S256x640.ShapeCasts S256x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S2048x640 : S1x640.Broadcasts S2048x640
  reduces_S2048x640_S2048 : S2048x640.Reduces [1] S2048
  shapeCasts_S2048_S2048x1 : S2048.ShapeCasts S2048x1
  broadcasts_S2048x1_S2048x640 : S2048x1.Broadcasts S2048x640
  shapeCasts_S2048x1024_S2048x1024 : S2048x1024.ShapeCasts S2048x1024
  broadcasts_S2048x1_S2048x1024 : S2048x1.Broadcasts S2048x1024
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  shapeCasts_S8192x1024_S4x2048x1024 : S8192x1024.ShapeCasts S4x2048x1024
  dot_S2048x256_S256x640_S2048x640_1_0_0_1_n_n_wf : DotDims.WF S2048x256 S256x640 S2048x640 [1] [0] [0] [1] [] []
  dot_S2048x640_S640x1024_S2048x1024_1_0_0_1_n_n_wf : DotDims.WF S2048x640 S640x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x640.size a ≤ S256x32000.size a
  hwx0_1 : ∀ i : grid0.Coords, EltTy.bits .bf16 = 32 ∨ (Rect.block (s := S256x32000) S256x640.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x32000.size a
  hwx0_2 : ∀ i : grid0.Coords, EltTy.bits .f32 = 32 ∨ (Rect.block (s := S1x32000) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S640x1024.size a ≤ S32000x1024.size a
  hwx0_3 : ∀ i : grid0.Coords, EltTy.bits .bf16 = 32 ∨ (Rect.block (s := S32000x1024) S640x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x1024.size a
  hwx0_4 : ∀ i : grid0.Coords, EltTy.bits .f32 = 32 ∨ (Rect.block (s := S8192x1024) S2048x1024.size (cc0_transform_4 i) (hinb0_4 i)).WholeWords (EltTy.packing .f32)

variable [Facts₀]

def dot_S2048x256_S256x640_S2048x640_1_0_0_1_n_n : DotDims S2048x256 S256x640 S2048x640 where
  lhsContracting := [1]
  rhsContracting := [0]
  lhsNonContracting := [0]
  rhsNonContracting := [1]
  lhsBatch := []
  rhsBatch := []
  wf := dot_S2048x256_S256x640_S2048x640_1_0_0_1_n_n_wf
def dot_S2048x640_S640x1024_S2048x1024_1_0_0_1_n_n : DotDims S2048x640 S640x1024 S2048x1024 where
  lhsContracting := [1]
  rhsContracting := [0]
  lhsNonContracting := [0]
  rhsNonContracting := [1]
  lhsBatch := []
  rhsBatch := []
  wf := dot_S2048x640_S640x1024_S2048x1024_1_0_0_1_n_n_wf

abbrev win0_0 : Pipeline.Window sig grid0 :=
  Pipeline.Window.ofSpec (Memref.whole main_v3) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S256x640.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x640.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S640x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x256x32 : Shape := ⟨4, ![4, 64, 256, 32]⟩
abbrev S32000x1024 : Shape := ⟨2, ![32000, 1024]⟩
abbrev S256x32000 : Shape := ⟨2, ![256, 32000]⟩
abbrev S32000 : Shape := ⟨1, ![32000]⟩
abbrev S4x32x64x256 : Shape := ⟨4, ![4, 32, 64, 256]⟩
abbrev S4x2048x256 : Shape := ⟨3, ![4, 2048, 256]⟩
abbrev S4x2048x32000 : Shape := ⟨3, ![4, 2048, 32000]⟩
abbrev S1x1x32000 : Shape := ⟨3, ![1, 1, 32000]⟩
abbrev S_ : Shape := ⟨0, ![]⟩
abbrev S4x2048 : Shape := ⟨2, ![4, 2048]⟩
abbrev S4x2048x1 : Shape := ⟨3, ![4, 2048, 1]⟩
abbrev S4x2048x1024 : Shape := ⟨3, ![4, 2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4x64x256x32, .f32⟩
  | .hbm, ⟨1, _⟩ => ⟨S32000x1024, .f32⟩
  | .hbm, ⟨2, _⟩ => ⟨S256x32000, .f32⟩
  | .hbm, ⟨3, _⟩ => ⟨S32000, .f32⟩
  | .hbm, ⟨4, _⟩ => ⟨S4x32x64x256, .f32⟩
  | .hbm, ⟨5, _⟩ => ⟨S4x2048x256, .f32⟩
  | .hbm, ⟨6, _⟩ => ⟨S4x2048x32000, .f32⟩
  | .hbm, ⟨7, _⟩ => ⟨S1x1x32000, .f32⟩
  | .hbm, ⟨8, _⟩ => ⟨S4x2048x32000, .f32⟩
  | .hbm, ⟨9, _⟩ => ⟨S4x2048x32000, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048x1, .f32⟩
  | .hbm, ⟨16, _⟩ => ⟨S4x2048x32000, .f32⟩
  | .hbm, ⟨17, _⟩ => ⟨S4x2048x32000, .f32⟩
  | .hbm, ⟨18, _⟩ => ⟨S4x2048x32000, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S4x2048x32000, .f32⟩
  | .hbm, ⟨23, _⟩ => ⟨S4x2048x32000, .f32⟩
  | .hbm, ⟨24, _⟩ => ⟨S4x2048x1024, .f32⟩
  | _, _ => ⟨S4x64x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S4x64x256x32_S4x32x64x256_0_3_1_2 : S4x64x256x32.Transposes [0, 3, 1, 2] S4x32x64x256
  shapeCasts_S4x32x64x256_S4x2048x256 : S4x32x64x256.ShapeCasts S4x2048x256
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  reducesTo_S4x2048x32000_S4x2048_d2 : S4x2048x32000.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x32000_0_1_2 : S4x2048x1.BroadcastsInDim S4x2048x32000 (![0, 1, 2] : Fin 3 → Fin S4x2048x32000.rank)
  dot_S4x2048x256_S256x32000_S4x2048x32000_2_0_01_1_n_n_wf : DotDims.WF S4x2048x256 S256x32000 S4x2048x32000 [2] [0] [0, 1] [1] [] []
  dot_S4x2048x32000_S32000x1024_S4x2048x1024_2_0_01_1_n_n_wf : DotDims.WF S4x2048x32000 S32000x1024 S4x2048x1024 [2] [0] [0, 1] [1] [] []

variable [Facts₀]

def dot_S4x2048x256_S256x32000_S4x2048x32000_2_0_01_1_n_n : DotDims S4x2048x256 S256x32000 S4x2048x32000 where
  lhsContracting := [2]
  rhsContracting := [0]
  lhsNonContracting := [0, 1]
  rhsNonContracting := [1]
  lhsBatch := []
  rhsBatch := []
  wf := dot_S4x2048x256_S256x32000_S4x2048x32000_2_0_01_1_n_n_wf
def dot_S4x2048x32000_S32000x1024_S4x2048x1024_2_0_01_1_n_n : DotDims S4x2048x32000 S32000x1024 S4x2048x1024 where
  lhsContracting := [2]
  rhsContracting := [0]
  lhsNonContracting := [0, 1]
  rhsNonContracting := [1]
  lhsBatch := []
  rhsBatch := []
  wf := dot_S4x2048x32000_S32000x1024_S4x2048x1024_2_0_01_1_n_n_wf

class Facts : Prop extends Facts₀ where

variable [Facts]
-- ==== Proof.LibSoftmaxRow.lean ====
/-
  One row of softmax attention on the extended reals: normalising the weights before or after the weighted sum.

  A row of scores `t k` (k over the keys) and a column of values `v k` give the output
  `∑ₖ softmax(t)ₖ · vₖ`, where `softmax(t)ₖ = exp (tₖ - M) / L`, `M = maxₖ tₖ` (taken from `-∞`) and `L = ∑ₖ exp (tₖ - M)`.
  The quotient by `L` may be taken of every weight before the weighted sum (`attnNormalised`), or once of the weighted
  sum (`attnDeferred`): on the extended reals the two agree as soon as every score and every value is a real number
  (`attnNormalised_eq_attnDeferred`), because then `M` is a real (a maximum of at least one real), every weight
  `exp (tₖ - M)` is a positive real, `L` is a positive real, and a quotient by a nonzero real is the product with its
  reciprocal, which distributes over a finite sum of reals. (At an infinite entry the two can differ, which is why the
  hypothesis is there.) Also: `IsReal`, the extended reals that are real numbers, closed under sums and products; the
  coercion of a finite sum; the f32 pattern of `-∞` is `⊥`. Nothing here mentions a program.
-/
import Idealize.ShloMosaic.PureOps.Ideal
import Idealize.ShloMosaic.PureOps.Ideal.Laws

noncomputable section

namespace Cert.SoftmaxRow

open Idealize.ShloMosaic

/-! ## Reals inside the extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The pattern of `-∞` -/

/-- The pattern of `-∞` is the bottom of the extended reals. -/
theorem ofBits_negInf : Ideal.ofBits .f32 0xFF800000#32 = ⊥ := by
  simp [Ideal.ofBits, Ideal.ieee]

/-! ## One row -/

variable {n : ℕ}

/-- The row's maximum, from `-∞`. -/
def rowMax (t : Fin n → EReal) : EReal := (Finset.univ : Finset (Fin n)).fold max ⊥ t

/-- The unnormalised weight of key `k`. -/
def rowWt (t : Fin n → EReal) (k : Fin n) : EReal := Ideal.exp (t k - rowMax t)

/-- The normaliser: the sum of the weights. -/
def rowDen (t : Fin n → EReal) : EReal := ∑ k, rowWt t k

/-- The weighted sum of the values, divided once by the normaliser. -/
def attnDeferred (t v : Fin n → EReal) : EReal := Ideal.div (∑ k, rowWt t k * v k) (rowDen t)

/-- Every weight divided by the normaliser, then the weighted sum. -/
def attnNormalised (t v : Fin n → EReal) : EReal := ∑ k, Ideal.div (rowWt t k) (rowDen t) * v k

/-- The maximum of at least one real is a real. -/
theorem rowMax_coe (hn : 0 < n) (t : Fin n → ℝ) : IsReal (rowMax fun k => (t k : EReal)) := by
  unfold rowMax
  have hlt : (Finset.univ : Finset (Fin n)).fold max (⊥ : EReal) (fun k => (t k : EReal)) < ⊤ :=
    (Finset.fold_max_lt _).mpr ⟨bot_lt_top, fun k _ => EReal.coe_lt_top _⟩
  have hge : ((t ⟨0, hn⟩ : ℝ) : EReal) ≤ (Finset.univ : Finset (Fin n)).fold max (⊥ : EReal) (fun k => (t k : EReal)) :=
    (Finset.le_fold_max _).mpr (Or.inr ⟨⟨0, hn⟩, Finset.mem_univ _, le_rfl⟩)
  have hne : (Finset.univ : Finset (Fin n)).fold max (⊥ : EReal) (fun k => (t k : EReal)) ≠ ⊥ := fun h => by
    rw [h] at hge
    exact EReal.coe_ne_bot _ (le_bot_iff.mp hge)
  exact ⟨_, (EReal.coe_toReal hlt.ne hne).symm⟩

/-- THE LAW: with real scores and real values, normalising the weights first or the weighted sum afterwards
    is the same extended real. -/
theorem attnNormalised_eq_attnDeferred (hn : 0 < n) (t v : Fin n → EReal) (ht : ∀ k, IsReal (t k)) (hv : ∀ k, IsReal (v k)) :
    attnNormalised t v = attnDeferred t v := by
  choose t' ht' using ht
  choose v' hv' using hv
  obtain rfl : t = fun k => (t' k : EReal) := funext ht'
  obtain rfl : v = fun k => (v' k : EReal) := funext hv'
  obtain ⟨M, hM⟩ := rowMax_coe hn t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin n, Real.exp (t' k - M)) ≠ 0 :=
    (Finset.sum_pos (fun k _ => Real.exp_pos _) ⟨⟨0, hn⟩, Finset.mem_univ _⟩).ne'
  unfold attnNormalised attnDeferred
  rw [hL, Ideal.div_coe hpos]
  simp only [hw, Ideal.div_coe hpos, ← EReal.coe_mul, ← coe_sum]
  congr 1
  rw [Finset.sum_mul]
  exact Finset.sum_congr rfl fun k _ => by ring

end Cert.SoftmaxRow

end
-- ==== Proof.Spec.lean ====
/-
  The value both programs compute, as one function of the argument arrays, index by index.

  A position is a pair (b, l): batch b of 4, row l of 2048. Its score for token k of 32000 is
      score b l k = (Σ_f X(b, l, f) · W(f, k)) + bias(k),       f over 256 features,
  and its output in embedding column d of 1024 is the softmax-weighted mixture of the embedding rows,
      Σ_k softmax(score b l)_k · E(k, d).
  The quotient by the softmax's normaliser may be taken of every weight before the weighted sum (the textbook order:
  `mixNormalised`) or once of the weighted sum (`mixDeferred`); with real scores and real embeddings the two are the same
  extended real (`mixNormalised_eq_mixDeferred`, from the one-row law). X is the input with its feature axis moved last and
  its (time, node) axes merged into the row axis; both programs form it by the same two layout operations, so it is kept
  as one array here.
-/
import Idealize.ShloMosaic.PureOps.Ideal
import Idealize.ShloMosaic.Lib.ValueIdx
import proofs.«159708_j12429635355371_2_alg».proof.Proof.LibSoftmaxRow

noncomputable section

namespace Cert.Mixture

open Idealize.ShloMosaic Idealize.ShloMosaic.ValueIdx Cert.SoftmaxRow

/-- The score of token `k` at position `(b, l)`: the row of `X` against column `k` of `W`, plus the bias. -/
def score (X : (⟨3, ![4, 2048, 256]⟩ : Shape).Idx → EReal) (W : (⟨2, ![256, 32000]⟩ : Shape).Idx → EReal)
    (bias : (⟨1, ![32000]⟩ : Shape).Idx → EReal) (b : Fin 4) (l : Fin 2048) (k : Fin 32000) : EReal :=
  (∑ f : Fin 256, X (ix3 b l f) * W (ix2 f k)) + bias (ix1 k)

/-- Column `d` of the embedding table, as a function of the token. -/
def embCol (E : (⟨2, ![32000, 1024]⟩ : Shape).Idx → EReal) (d : Fin 1024) (k : Fin 32000) : EReal := E (ix2 k d)

/-- The mixture with the weighted sum divided once by the normaliser, at coordinates. -/
def mixDeferredAt (X : (⟨3, ![4, 2048, 256]⟩ : Shape).Idx → EReal) (W : (⟨2, ![256, 32000]⟩ : Shape).Idx → EReal)
    (bias : (⟨1, ![32000]⟩ : Shape).Idx → EReal) (E : (⟨2, ![32000, 1024]⟩ : Shape).Idx → EReal)
    (b : Fin 4) (l : Fin 2048) (d : Fin 1024) : EReal :=
  attnDeferred (score X W bias b l) (embCol E d)

/-- The mixture with every weight divided by the normaliser first, at coordinates. -/
def mixNormalisedAt (X : (⟨3, ![4, 2048, 256]⟩ : Shape).Idx → EReal) (W : (⟨2, ![256, 32000]⟩ : Shape).Idx → EReal)
    (bias : (⟨1, ![32000]⟩ : Shape).Idx → EReal) (E : (⟨2, ![32000, 1024]⟩ : Shape).Idx → EReal)
    (b : Fin 4) (l : Fin 2048) (d : Fin 1024) : EReal :=
  attnNormalised (score X W bias b l) (embCol E d)

/-- The result array: the deferred mixture at every index. -/
def mixDeferred (X : (⟨3, ![4, 2048, 256]⟩ : Shape).Idx → EReal) (W : (⟨2, ![256, 32000]⟩ : Shape).Idx → EReal)
    (bias : (⟨1, ![32000]⟩ : Shape).Idx → EReal) (E : (⟨2, ![32000, 1024]⟩ : Shape).Idx → EReal) :
    (⟨3, ![4, 2048, 1024]⟩ : Shape).Idx → EReal :=
  fun i => mixDeferredAt X W bias E (i 0) (i 1) (i 2)

/-- A score is a real when the row, the weights and the bias are: a finite sum of products of reals, plus a real. -/
theorem score_isReal {X : (⟨3, ![4, 2048, 256]⟩ : Shape).Idx → EReal} {W : (⟨2, ![256, 32000]⟩ : Shape).Idx → EReal}
    {bias : (⟨1, ![32000]⟩ : Shape).Idx → EReal} (hX : ∀ i, IsReal (X i)) (hW : ∀ i, IsReal (W i)) (hb : ∀ i, IsReal (bias i))
    (b : Fin 4) (l : Fin 2048) (k : Fin 32000) : IsReal (score X W bias b l k) :=
  (isReal_sum _ _ fun f => (hX _).mul (hW _)).add (hb _)

/-- With real inputs the two orders of normalising agree at every coordinate. -/
theorem mixNormalisedAt_eq_mixDeferredAt {X : (⟨3, ![4, 2048, 256]⟩ : Shape).Idx → EReal}
    {W : (⟨2, ![256, 32000]⟩ : Shape).Idx → EReal} {bias : (⟨1, ![32000]⟩ : Shape).Idx → EReal}
    {E : (⟨2, ![32000, 1024]⟩ : Shape).Idx → EReal}
    (hX : ∀ i, IsReal (X i)) (hW : ∀ i, IsReal (W i)) (hb : ∀ i, IsReal (bias i)) (hE : ∀ i, IsReal (E i))
    (b : Fin 4) (l : Fin 2048) (d : Fin 1024) :
    mixNormalisedAt X W bias E b l d = mixDeferredAt X W bias E b l d :=
  attnNormalised_eq_attnDeferred (by norm_num) _ _ (score_isReal hX hW hb b l) (fun k => hE _)

end Cert.Mixture

end
-- ==== Proof.LibLastAxisMax.lean ====
/-
  The host's maximum over the LAST axis of an `[n, a, b]` array, read at an index written by its coordinates.

  A softmax over the last axis takes, for each `(k, p)`, the maximum of the `b` entries `(k, p, c)`. At the ideal values
  the host's reduction is the fold of `max`, from the initial value, over `c : Fin b` of those entries: no order of
  evaluation is left in it. Nothing here mentions a program.
-/
import Idealize.ShloMosaic.PureOps.Ideal.Laws
import Idealize.ShloMosaic.Lib.Pipeline.Value
import Idealize.ShloMosaic.Lib.ValueIdx

namespace Cert.LastAxisMax

open Idealize.ShloMosaic Idealize.ShloMosaic.ValueIdx

variable {φ : FTy}

/-- The host's maximum over the LAST axis of an `[n, a, b]` array, at `(k, p)`: the fold of `max`, from the initial value,
    over `c : Fin b` of the entries `(k, p, c)`. -/
theorem hostLastMax_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.maximumf (F := Ideal) (φ := φ)) x init h' hu (ix2 k p)
      = (Finset.univ : Finset (Fin b)).fold max (init (Shape.Idx.first hu)) (fun c => x (ix3 k p c)) := by
  refine (Host.reduce_eq_fold_single (FloatOps.maximumf (F := Ideal) (φ := φ)) x init h' h hu (ix2 k p)).trans ?_
  show (Finset.univ : Finset (Fin b)).fold max (init (Shape.Idx.first hu)) (fun c => x (h.lift (ix2 k p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl | ⟨2, _⟩ => rfl))

end Cert.LastAxisMax
-- ==== Proof.RefValue.lean ====
/-
  The reference program's last stage, read at coordinates, is the normalised mixture of the specification.

  The reference forms, for a position (b, l), the scores  s k = (Σ_f X(b, l, f) · W(f, k)) + bias(k)  over the 32000 tokens,
  their maximum M taken from -∞, the weights  exp (s k - M),  their sum L, the quotients  exp (s k - M) / L,  and then, for
  an embedding column d, the sum over the tokens of the quotient times E(k, d). Each stage below is read at explicit
  coordinates and identified with the corresponding term of the one-row softmax; X is the transposed and reshaped input,
  kept as one array.
-/
import proofs.«159708_j12429635355371_2_alg».proof.Proof.Gen.ReferenceIdeal.Read
import proofs.«159708_j12429635355371_2_alg».proof.Proof.Spec
import proofs.«159708_j12429635355371_2_alg».proof.Proof.LibLastAxisMax
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.Read

/-- The row of scores of position `(b, l)` that the specification forms from the reshaped input, the weights and the bias. -/
abbrev scoreRow (x0 : (⟨S4x64x256x32, .f32⟩ : BufTy).Contents (Elt Ideal)) (x2 : (⟨S256x32000, .f32⟩ : BufTy).Contents (Elt Ideal))
    (x3 : (⟨S32000, .f32⟩ : BufTy).Contents (Elt Ideal)) (b : Fin 4) (l : Fin 2048) : Fin 32000 → EReal :=
  Cert.Mixture.score (val_main_v1 (F := Ideal) x0) x2 x3 b l

/-- The logits: the row of the reshaped input against column `k` of the weights, plus the bias of token `k`. -/
theorem logits_at (x0 : (⟨S4x64x256x32, .f32⟩ : BufTy).Contents (Elt Ideal)) (x2 : (⟨S256x32000, .f32⟩ : BufTy).Contents (Elt Ideal))
    (x3 : (⟨S32000, .f32⟩ : BufTy).Contents (Elt Ideal)) (b : Fin 4) (l : Fin 2048) (k : Fin 32000) :
    val_main_v5 (F := Ideal) x0 x2 x3 (ix3 b l k) = scoreRow x0 x2 x3 b l k := by
  have el : ∀ f : Fin 256, lidx_main_v2 (ix3 b l k) f = ix3 b l f := fun f => funext fun a => Fin.ext (by
    match a with | ⟨0, _⟩ => rfl | ⟨1, _⟩ => rfl | ⟨2, _⟩ => rfl)
  have er : ∀ f : Fin 256, ridx_main_v2 (ix3 b l k) f = ix2 f k := fun f => funext fun a => Fin.ext (by
    match a with | ⟨0, _⟩ => rfl | ⟨1, _⟩ => rfl)
  have eb : idx_main_v3 (idx_main_v4 (ix3 b l k)) = ix1 k := funext fun a => Fin.ext (by
    match a with | ⟨0, _⟩ => rfl)
  rw [val_main_v5_apply, val_main_v2_apply, val_main_v4_apply, val_main_v3_apply, eb, Ideal.addf_def]
  simp only [el, er]
  rfl

/-- The row maximum: the maximum of `-∞` and the fold of `max` from `-∞` over the tokens of the logits is the
    row maximum of the scores. -/
theorem rowMax_at (x0 : (⟨S4x64x256x32, .f32⟩ : BufTy).Contents (Elt Ideal)) (x2 : (⟨S256x32000, .f32⟩ : BufTy).Contents (Elt Ideal))
    (x3 : (⟨S32000, .f32⟩ : BufTy).Contents (Elt Ideal)) (b : Fin 4) (l : Fin 2048) :
    val_main_v8 (F := Ideal) x0 x2 x3 (ix2 b l) = Cert.SoftmaxRow.rowMax (scoreRow x0 x2 x3 b l) := by
  have hfold : val_main_v6 (F := Ideal) x0 x2 x3 (ix2 b l)
      = (Finset.univ : Finset (Fin 32000)).fold max (⊥ : EReal) (fun c => val_main_v5 (F := Ideal) x0 x2 x3 (ix3 b l c)) := by
    unfold val_main_v6
    refine (Cert.LastAxisMax.hostLastMax_apply (val_main_v5 (F := Ideal) x0 x2 x3) (val_main_cst (F := Ideal))
      reducesTo_S4x2048x32000_S4x2048_d2 (by decide) h_S_ b l).trans ?_
    rw [val_main_cst_apply, Ideal.ofBits_def, Cert.SoftmaxRow.ofBits_negInf]
  rw [val_main_v8_apply, val_main_v7_apply, val_main_cst_0_apply, Ideal.ofBits_def, Cert.SoftmaxRow.ofBits_negInf,
    Ideal.maximumf_def, hfold, max_eq_right bot_le]
  unfold Cert.SoftmaxRow.rowMax
  exact congrArg (fun f => (Finset.univ : Finset (Fin 32000)).fold max (⊥ : EReal) f)
    (funext fun c => logits_at x0 x2 x3 b l c)

/-- The weights: the exponential of the logit of token `k` less the row maximum (the maximum is broadcast along the
    token axis, so it is read at the position alone). -/
theorem weight_at (x0 : (⟨S4x64x256x32, .f32⟩ : BufTy).Contents (Elt Ideal)) (x2 : (⟨S256x32000, .f32⟩ : BufTy).Contents (Elt Ideal))
    (x3 : (⟨S32000, .f32⟩ : BufTy).Contents (Elt Ideal)) (b : Fin 4) (l : Fin 2048) (k : Fin 32000) :
    val_main_v12 (F := Ideal) x0 x2 x3 (ix3 b l k) = Cert.SoftmaxRow.rowWt (scoreRow x0 x2 x3 b l) k := by
  have e9 : idx_main_v9 (idx_main_v10 (ix3 b l k)) = ix2 b l := funext fun a => Fin.ext (by
    match a with | ⟨0, _⟩ => rfl | ⟨1, _⟩ => rfl)
  rw [val_main_v12_apply, val_main_v11_apply, val_main_v10_apply, val_main_v9_apply, e9, rowMax_at, logits_at,
    Ideal.hostUnary_exp_def, Ideal.subf_def]
  rfl

/-- The normaliser: zero plus the sum over the tokens of the weights is the sum of the weights. -/
theorem normaliser_at (x0 : (⟨S4x64x256x32, .f32⟩ : BufTy).Contents (Elt Ideal)) (x2 : (⟨S256x32000, .f32⟩ : BufTy).Contents (Elt Ideal))
    (x3 : (⟨S32000, .f32⟩ : BufTy).Contents (Elt Ideal)) (b : Fin 4) (l : Fin 2048) :
    val_main_v13 (F := Ideal) x0 x2 x3 (ix2 b l) = Cert.SoftmaxRow.rowDen (scoreRow x0 x2 x3 b l) := by
  have e13 : ∀ k : Fin 32000, idx_main_v13 (ix2 b l) k = ix3 b l k := fun k => funext fun a => Fin.ext (by
    match a with | ⟨0, _⟩ => rfl | ⟨1, _⟩ => rfl | ⟨2, _⟩ => rfl)
  rw [val_main_v13_apply, val_main_cst_1_apply, Ideal.ofBits_def, Ideal.ofBits_zero_f32, zero_add]
  unfold Cert.SoftmaxRow.rowDen
  exact Finset.sum_congr rfl fun k _ => by rw [e13, weight_at]

/-- The normalised weights: the weight of token `k` divided by the normaliser of its position (the normaliser is
    broadcast along the token axis). -/
theorem quotient_at (x0 : (⟨S4x64x256x32, .f32⟩ : BufTy).Contents (Elt Ideal)) (x2 : (⟨S256x32000, .f32⟩ : BufTy).Contents (Elt Ideal))
    (x3 : (⟨S32000, .f32⟩ : BufTy).Contents (Elt Ideal)) (b : Fin 4) (l : Fin 2048) (k : Fin 32000) :
    val_main_v16 (F := Ideal) x0 x2 x3 (ix3 b l k)
      = Ideal.div (Cert.SoftmaxRow.rowWt (scoreRow x0 x2 x3 b l) k) (Cert.SoftmaxRow.rowDen (scoreRow x0 x2 x3 b l)) := by
  have e14 : idx_main_v14 (idx_main_v15 (ix3 b l k)) = ix2 b l := funext fun a => Fin.ext (by
    match a with | ⟨0, _⟩ => rfl | ⟨1, _⟩ => rfl)
  rw [val_main_v16_apply, val_main_v15_apply, val_main_v14_apply, e14, normaliser_at, weight_at, Ideal.hostDivf_def]

/-- The result: the sum over the tokens of the normalised weight times the embedding entry `(k, d)` is the
    specification's mixture with every weight normalised first. -/
theorem result_at (x0 : (⟨S4x64x256x32, .f32⟩ : BufTy).Contents (Elt Ideal)) (x1 : (⟨S32000x1024, .f32⟩ : BufTy).Contents (Elt Ideal))
    (x2 : (⟨S256x32000, .f32⟩ : BufTy).Contents (Elt Ideal)) (x3 : (⟨S32000, .f32⟩ : BufTy).Contents (Elt Ideal))
    (b : Fin 4) (l : Fin 2048) (d : Fin 1024) :
    Read.val_main_v17 (F := Ideal) x0 x1 x2 x3 (ix3 b l d)
      = Cert.Mixture.mixNormalisedAt (Read.val_main_v1 (F := Ideal) x0) x2 x3 x1 b l d := by
  have el : ∀ k : Fin 32000, lidx_main_v17 (ix3 b l d) k = ix3 b l k := fun k => funext fun a => Fin.ext (by
    match a with | ⟨0, _⟩ => rfl | ⟨1, _⟩ => rfl | ⟨2, _⟩ => rfl)
  have er : ∀ k : Fin 32000, ridx_main_v17 (ix3 b l d) k = ix2 k d := fun k => funext fun a => Fin.ext (by
    match a with | ⟨0, _⟩ => rfl | ⟨1, _⟩ => rfl)
  rw [val_main_v17_apply]
  unfold Cert.Mixture.mixNormalisedAt Cert.SoftmaxRow.attnNormalised Cert.Mixture.embCol
  exact Finset.sum_congr rfl fun k _ => by rw [el, er, quotient_at]

/-- Every entry of the transposed, reshaped input is an entry of the input: it is a real when every input entry is. -/
theorem stage_v1_isReal (x0 : (⟨S4x64x256x32, .f32⟩ : BufTy).Contents (Elt Ideal)) (h : ∀ i, Cert.SoftmaxRow.IsReal (x0 i)) :
    ∀ i, Cert.SoftmaxRow.IsReal (Read.val_main_v1 (F := Ideal) x0 i) := by
  intro i
  rw [val_main_v1_apply, val_main_v0_apply]
  exact h _

end Cert.ReferenceIdeal.RefValue

end
-- ==== Proof.Finite.lean ====
/-
  Finiteness of the inputs from the precondition.

  The precondition says of each of the four float argument arrays that every entry x satisfies |x| < +∞, where |x| is
  max x (-x) on the extended reals, and takes the conjunction of these over all entries and all four arrays. An extended
  real x with max x (-x) < +∞ is neither -∞ (then -x = +∞) nor +∞, so it is a real number. Reading the conjunction back
  entry by entry therefore gives: under the precondition every entry of every argument array is a real.
-/
import proofs.«159708_j12429635355371_2_alg».proof.Defs
import proofs.«159708_j12429635355371_2_alg».proof.Proof.LibSoftmaxRow
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem Cert.SoftmaxRow

/-- The scalar shape has exactly one index. -/
instance : Subsingleton Cert.Pre_finite_inputs.S_.Idx := ⟨fun a b => funext fun d => d.elim0⟩

/-- An extended real whose absolute value max x (-x) is strictly below +∞ is a real: at -∞ and at +∞ the absolute
    value is +∞. -/
theorem isReal_of_abs_lt (x : EReal)
    (h : Ideal.cmp .olt (max x (-x)) (Ideal.ofBits .f32 0x7F800000#32) = 1#1) : IsReal x := by
  induction x using EReal.rec with
  | bot => simp [Ideal.cmp, Ideal.ofBits, Ideal.ieee] at h
  | coe r => exact ⟨r, rfl⟩
  | top => simp [Ideal.cmp, Ideal.ofBits, Ideal.ieee] at h

/-- One array, of any shape: if the conjunction over all its entries of |x i| < +∞ is true, every entry is a real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ValueIdx.ix0 = 1#1) :
    ∀ i, IsReal (x i) := fun i =>
  isReal_of_abs_lt (x i) (Host.reduce_andi_all _ _ hr hu _ e i)

/-- Under the precondition every entry of each of the four argument arrays is a real. -/
theorem inputs_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
    ∧ (∀ i, IsReal (m ((c.tc : Thread Cert.KernelIdeal.nD Cert.KernelIdeal.τ).loc Cert.KernelIdeal.main_arg1) i))
    ∧ (∀ i, IsReal (m ((c.tc : Thread Cert.KernelIdeal.nD Cert.KernelIdeal.τ).loc Cert.KernelIdeal.main_arg2) i))
    ∧ (∀ i, IsReal (m ((c.tc : Thread Cert.KernelIdeal.nD Cert.KernelIdeal.τ).loc Cert.KernelIdeal.main_arg3) i)) := by
  have e := congrFun (h c) ValueIdx.ix0
  dsimp only [Cert.Pre_finite_inputs.fn, Cert.Pre_finite_inputs.fn_part1] at e
  simp only [andi, IntOp.andi_eq_one] at e
  obtain ⟨⟨⟨e0, e1⟩, e2⟩, e3⟩ := e
  exact ⟨all_real _ _ _ _ e0, all_real _ _ _ _ e1, all_real _ _ _ _ e2, all_real _ _ _ _ e3⟩

end Cert.KernelIdeal.Finite

end
-- ==== Proof.KernelPieces.lean ====
/-
  What one grid point's body leaves in the output block and in the two carried columns, as values.

  The body keeps, per row of its 2048-row block, a running maximum (column `m`), a running normaliser (column `l`) and a
  running weighted sum (the output block `o`). At every point it forms the block's scores, the new maximum, the rescaling
  factor and the block's weights, and stores the rescaled-and-extended `l` and `o` and the new `m`. Three cases:
    A (first step of a sweep): `o`, `m`, `l` are first reset to 0, -∞, 0, and the step reads those back;
    B (a middle step): the step reads what the step before left;
    C (last step): as B, and then the output block is divided by the (just updated) normaliser column.
  Each lemma names what a case leaves as the body's pure terms of the input blocks and of what was carried in; they hold
  for any interpretation of the float operations.
-/
import proofs.«159708_j12429635355371_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A, the output block: the step taken from the reset values. -/
theorem outA (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : cond0_0 i) (hc1 : ¬cond0_1 i) (x0 : Vec F S2048x256 .bf16) (x1 : Vec F S256x640 .bf16) (x2 : Vec F S1x640 .f32) (x3 : Vec F S640x1024 .bf16)  :
    out0_A_4 c i a2 h2 a3 h3 a4 h4 a5 h5 a6 h6 a7 h7 a8 h8 hc0 hc1 x0 x1 x2 x3  = k0_pay1 (k0_pay12 x0 x1 x2 (k0_pay5 (F := F)) (k0_pay4 (F := F))) (k0_pay13 x0 x1 x2 (k0_pay5 (F := F))) x3 := by
  unfold out0_A_4
  rw [View.read_writes_eq_canon _ _ _ (cover0_A_4 c i a2 h2 a3 h3 a4 h4 a5 h5 a6 h6 a7 h7 a8 h8 hc0 hc1 x0 x1 x2 x3 )]
  unfold kernelRun0_A
  dsimp only
  sl_unfold_words
  rw [View.canon_cons_unit_zero (S := S2048x1024) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case A, the running maximum: the block's maximum against the reset value. -/
theorem maxA (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : cond0_0 i) (hc1 : ¬cond0_1 i) (x0 : Vec F S2048x256 .bf16) (x1 : Vec F S256x640 .bf16) (x2 : Vec F S1x640 .f32) (x3 : Vec F S640x1024 .bf16)  :
    sout0_A_0 c i a2 h2 a3 h3 a4 h4 a5 h5 a6 h6 a7 h7 a8 h8 hc0 hc1 x0 x1 x2 x3  = k0_pay2 (k0_pay8 x0 x1 x2 (k0_pay5 (F := F))) := by
  unfold sout0_A_0
  rw [View.read_writes_eq_canon _ _ _ (scover0_A_0 c i a2 h2 a3 h3 a4 h4 a5 h5 a6 h6 a7 h7 a8 h8 hc0 hc1 x0 x1 x2 x3 )]
  unfold kernelRun0_A
  dsimp only
  sl_unfold_words
  rw [View.canon_cons_unit_zero (S := S2048x1) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case A, the running normaliser: the step taken from the reset values. -/
theorem denA (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : cond0_0 i) (hc1 : ¬cond0_1 i) (x0 : Vec F S2048x256 .bf16) (x1 : Vec F S256x640 .bf16) (x2 : Vec F S1x640 .f32) (x3 : Vec F S640x1024 .bf16)  :
    sout0_A_1 c i a2 h2 a3 h3 a4 h4 a5 h5 a6 h6 a7 h7 a8 h8 hc0 hc1 x0 x1 x2 x3  = k0_pay11 x0 x1 x2 (k0_pay5 (F := F)) (k0_pay6 (F := F)) := by
  unfold sout0_A_1
  rw [View.read_writes_eq_canon _ _ _ (scover0_A_1 c i a2 h2 a3 h3 a4 h4 a5 h5 a6 h6 a7 h7 a8 h8 hc0 hc1 x0 x1 x2 x3 )]
  unfold kernelRun0_A
  dsimp only
  sl_unfold_words
  rw [View.canon_cons_unit_zero (S := S2048x1) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case B, the output block: the step taken from what was carried in. -/
theorem outB (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : ¬cond0_0 i) (hc1 : ¬cond0_1 i) (x0 : Vec F S2048x256 .bf16) (x1 : Vec F S256x640 .bf16) (x2 : Vec F S1x640 .f32) (x3 : Vec F S640x1024 .bf16) (xo4 : Vec F S2048x1024 .f32) (xs0 : Vec F S2048x1 .f32) (xs1 : Vec F S2048x1 .f32) :
    out0_B_4 c i a2 h2 a3 h3 a4 h4 a5 h5 a6 h6 a7 h7 a8 h8 hc0 hc1 x0 x1 x2 x3 xo4 xs0 xs1 = k0_pay1 (k0_pay12 x0 x1 x2 xs0 xo4) (k0_pay13 x0 x1 x2 xs0) x3 := by
  unfold out0_B_4
  rw [View.read_writes_eq_canon _ _ _ (cover0_B_4 c i a2 h2 a3 h3 a4 h4 a5 h5 a6 h6 a7 h7 a8 h8 hc0 hc1 x0 x1 x2 x3 xo4 xs0 xs1)]
  unfold kernelRun0_B
  dsimp only
  sl_unfold_words
  rw [View.canon_cons_unit_zero (S := S2048x1024) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case B, the running maximum. -/
theorem maxB (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : ¬cond0_0 i) (hc1 : ¬cond0_1 i) (x0 : Vec F S2048x256 .bf16) (x1 : Vec F S256x640 .bf16) (x2 : Vec F S1x640 .f32) (x3 : Vec F S640x1024 .bf16) (xo4 : Vec F S2048x1024 .f32) (xs0 : Vec F S2048x1 .f32) (xs1 : Vec F S2048x1 .f32) :
    sout0_B_0 c i a2 h2 a3 h3 a4 h4 a5 h5 a6 h6 a7 h7 a8 h8 hc0 hc1 x0 x1 x2 x3 xo4 xs0 xs1 = k0_pay2 (k0_pay8 x0 x1 x2 xs0) := by
  unfold sout0_B_0
  rw [View.read_writes_eq_canon _ _ _ (scover0_B_0 c i a2 h2 a3 h3 a4 h4 a5 h5 a6 h6 a7 h7 a8 h8 hc0 hc1 x0 x1 x2 x3 xo4 xs0 xs1)]
  unfold kernelRun0_B
  dsimp only
  sl_unfold_words
  rw [View.canon_cons_unit_zero (S := S2048x1) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case B, the running normaliser. -/
theorem denB (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : ¬cond0_0 i) (hc1 : ¬cond0_1 i) (x0 : Vec F S2048x256 .bf16) (x1 : Vec F S256x640 .bf16) (x2 : Vec F S1x640 .f32) (x3 : Vec F S640x1024 .bf16) (xo4 : Vec F S2048x1024 .f32) (xs0 : Vec F S2048x1 .f32) (xs1 : Vec F S2048x1 .f32) :
    sout0_B_1 c i a2 h2 a3 h3 a4 h4 a5 h5 a6 h6 a7 h7 a8 h8 hc0 hc1 x0 x1 x2 x3 xo4 xs0 xs1 = k0_pay11 x0 x1 x2 xs0 xs1 := by
  unfold sout0_B_1
  rw [View.read_writes_eq_canon _ _ _ (scover0_B_1 c i a2 h2 a3 h3 a4 h4 a5 h5 a6 h6 a7 h7 a8 h8 hc0 hc1 x0 x1 x2 x3 xo4 xs0 xs1)]
  unfold kernelRun0_B
  dsimp only
  sl_unfold_words
  rw [View.canon_cons_unit_zero (S := S2048x1) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case C, the output block: the step's result divided by the step's normaliser column. -/
theorem outC (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : ¬cond0_0 i) (hc1 : cond0_1 i) (x0 : Vec F S2048x256 .bf16) (x1 : Vec F S256x640 .bf16) (x2 : Vec F S1x640 .f32) (x3 : Vec F S640x1024 .bf16) (xo4 : Vec F S2048x1024 .f32) (xs0 : Vec F S2048x1 .f32) (xs1 : Vec F S2048x1 .f32) :
    out0_C_4 c i a2 h2 a3 h3 a4 h4 a5 h5 a6 h6 a7 h7 a8 h8 hc0 hc1 x0 x1 x2 x3 xo4 xs0 xs1 = k0_pay3 (k0_pay1 (k0_pay12 x0 x1 x2 xs0 xo4) (k0_pay13 x0 x1 x2 xs0) x3) (k0_pay11 x0 x1 x2 xs0 xs1) := by
  unfold out0_C_4
  rw [View.read_writes_eq_canon _ _ _ (cover0_C_4 c i a2 h2 a3 h3 a4 h4 a5 h5 a6 h6 a7 h7 a8 h8 hc0 hc1 x0 x1 x2 x3 xo4 xs0 xs1)]
  unfold kernelRun0_C
  dsimp only
  sl_unfold_words
  rw [View.canon_cons_unit_zero (S := S2048x1024) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case C, the running maximum. -/
theorem maxC (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : ¬cond0_0 i) (hc1 : cond0_1 i) (x0 : Vec F S2048x256 .bf16) (x1 : Vec F S256x640 .bf16) (x2 : Vec F S1x640 .f32) (x3 : Vec F S640x1024 .bf16) (xo4 : Vec F S2048x1024 .f32) (xs0 : Vec F S2048x1 .f32) (xs1 : Vec F S2048x1 .f32) :
    sout0_C_0 c i a2 h2 a3 h3 a4 h4 a5 h5 a6 h6 a7 h7 a8 h8 hc0 hc1 x0 x1 x2 x3 xo4 xs0 xs1 = k0_pay2 (k0_pay8 x0 x1 x2 xs0) := by
  unfold sout0_C_0
  rw [View.read_writes_eq_canon _ _ _ (scover0_C_0 c i a2 h2 a3 h3 a4 h4 a5 h5 a6 h6 a7 h7 a8 h8 hc0 hc1 x0 x1 x2 x3 xo4 xs0 xs1)]
  unfold kernelRun0_C
  dsimp only
  sl_unfold_words
  rw [View.canon_cons_unit_zero (S := S2048x1) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

/-- Case C, the running normaliser. -/
theorem denC (c : Dev nD) (i : grid0.Coords) (a2 : Memref sig .tc .vmem S2048x256 .bf16) (h2 : a2.IsWhole) (a3 : Memref sig .tc .vmem S256x640 .bf16) (h3 : a3.IsWhole) (a4 : Memref sig .tc .vmem S1x640 .f32) (h4 : a4.IsWhole) (a5 : Memref sig .tc .vmem S640x1024 .bf16) (h5 : a5.IsWhole) (a6 : Memref sig .tc .vmem S2048x1024 .f32) (h6 : a6.IsWhole) (a7 : Memref sig .tc .vmem S2048x1 .f32) (h7 : a7.IsWhole) (a8 : Memref sig .tc .vmem S2048x1 .f32) (h8 : a8.IsWhole) (hc0 : ¬cond0_0 i) (hc1 : cond0_1 i) (x0 : Vec F S2048x256 .bf16) (x1 : Vec F S256x640 .bf16) (x2 : Vec F S1x640 .f32) (x3 : Vec F S640x1024 .bf16) (xo4 : Vec F S2048x1024 .f32) (xs0 : Vec F S2048x1 .f32) (xs1 : Vec F S2048x1 .f32) :
    sout0_C_1 c i a2 h2 a3 h3 a4 h4 a5 h5 a6 h6 a7 h7 a8 h8 hc0 hc1 x0 x1 x2 x3 xo4 xs0 xs1 = k0_pay11 x0 x1 x2 xs0 xs1 := by
  unfold sout0_C_1
  rw [View.read_writes_eq_canon _ _ _ (scover0_C_1 c i a2 h2 a3 h3 a4 h4 a5 h5 a6 h6 a7 h7 a8 h8 hc0 hc1 x0 x1 x2 x3 xo4 xs0 xs1)]
  unfold kernelRun0_C
  dsimp only
  sl_unfold_words
  rw [View.canon_cons_unit_zero (S := S2048x1) hz]
  simp only [View.readAt_eq_ld, h2.read_unread, h3.read_unread, h4.read_unread, h5.read_unread, h6.read_unread, h7.read_unread, h8.read_unread,
    View.readCov_unit_zero (S := S2048x1024) _ hz, View.readCov_unit_zero (S := S2048x1) _ hz,
    View.ld_unit_zero (S := S2048x256) hz, View.ld_unit_zero (S := S256x640) hz, View.ld_unit_zero (S := S1x640) hz,
    View.ld_unit_zero (S := S640x1024) hz, View.ld_unit_zero (S := S2048x1024) hz, View.ld_unit_zero (S := S2048x1) hz]

end Cert.KernelIdeal.Pieces

end
-- ==== Proof.LibOnlineSoftmax.lean ====
/-
  Softmax attention of one row computed block by block ("online softmax"), on the extended reals.

  The keys are cut into consecutive blocks of `B`. A state is a triple (m, l, o): the running maximum of the scores seen
  so far (from `-∞`), the running normaliser and the running weighted sum of the values, both taken relative to the running
  maximum. One block with scores `s q` and values `v q` (q over the block) moves the state to
      m' = max m (max_q s q),   a = exp (m - m'),
      l' = a · l + Σ_q exp (s q - m'),        o' = a · o + Σ_q exp (s q - m') · v q :
  the old sums are rescaled from the old maximum to the new one and the block's terms added. From the state (-∞, 0, 0),
  after all `nb` blocks, with real scores and values, `m` is the row's maximum `M`, `l = Σ_k exp (t k - M)` and
  `o = Σ_k exp (t k - M) · v k` over all `N = nb · B` keys, because `exp (M₁ - M₂) · exp (x - M₁) = exp (x - M₂)` on the
  reals and, at the first block, `exp (-∞ - M) = 0` annihilates the (zero) initial sums. So `o / l` is the row's attention
  output with the weighted sum divided once by the normaliser (`run_quotient`). Nothing here mentions a program.
-/
import Idealize.ShloMosaic.PureOps.Ideal
import Idealize.ShloMosaic.PureOps.Ideal.Laws
import proofs.«159708_j12429635355371_2_alg».proof.Proof.LibSoftmaxRow

noncomputable section

namespace Cert.OnlineSoftmax

open Idealize.ShloMosaic Cert.SoftmaxRow

variable {B : ℕ}

/-- The maximum of one block's scores, from `-∞`. -/
def blockMax (s : Fin B → EReal) : EReal := (Finset.univ : Finset (Fin B)).fold max ⊥ s

/-- One block: the state (m, l, o) moved to the new running maximum, the block's terms added. -/
def step (s v : Fin B → EReal) (st : EReal × EReal × EReal) : EReal × EReal × EReal :=
  (max st.1 (blockMax s),
   Ideal.exp (st.1 - max st.1 (blockMax s)) * st.2.1 + ∑ q, Ideal.exp (s q - max st.1 (blockMax s)),
   Ideal.exp (st.1 - max st.1 (blockMax s)) * st.2.2 + ∑ q, Ideal.exp (s q - max st.1 (blockMax s)) * v q)

/-- The state after the first `j` blocks, from (-∞, 0, 0); block `j` has scores `s j` and values `v j`. -/
def run (s v : ℕ → Fin B → EReal) : ℕ → EReal × EReal × EReal
  | 0 => (⊥, 0, 0)
  | j + 1 => step (s j) (v j) (run s v j)

theorem run_zero (s v : ℕ → Fin B → EReal) : run s v 0 = (⊥, 0, 0) := rfl

theorem run_succ (s v : ℕ → Fin B → EReal) (j : ℕ) : run s v (j + 1) = step (s j) (v j) (run s v j) := rfl

/-! ## Real blocks -/

/-- The coercion of the reals commutes with the maximum of two. -/
theorem coe_max (a b : ℝ) : ((max a b : ℝ) : EReal) = max (a : EReal) (b : EReal) :=
  EReal.coe_strictMono.monotone.map_max

/-- The maximum of a nonempty block of reals is one of them, and bounds them all. -/
theorem blockMax_coe (hB : 0 < B) (x : Fin B → ℝ) :
    ∃ q0 : Fin B, blockMax (fun q => (x q : EReal)) = (x q0 : EReal) ∧ ∀ q, x q ≤ x q0 := by
  obtain ⟨q0, -, hq0⟩ :=
    Finset.exists_max_image (Finset.univ : Finset (Fin B)) x ⟨⟨0, hB⟩, Finset.mem_univ _⟩
  refine ⟨q0, le_antisymm ?_ ?_, fun q => hq0 q (Finset.mem_univ _)⟩
  · exact (Finset.fold_max_le _).mpr
      ⟨bot_le, fun q _ => EReal.coe_le_coe_iff.mpr (hq0 q (Finset.mem_univ _))⟩
  · exact (Finset.le_fold_max _).mpr (Or.inr ⟨q0, Finset.mem_univ _, le_rfl⟩)

/-- The first block: from (-∞, 0, 0) the factor exp (-∞ - b) multiplies the zero sums, and the new state is the block's
    own maximum b and the block's two sums relative to b. -/
theorem step_bot (x y : Fin B → ℝ) (b : ℝ) (hb : blockMax (fun q => (x q : EReal)) = (b : EReal)) :
    step (fun q => (x q : EReal)) (fun q => (y q : EReal)) (⊥, 0, 0) =
      ((b : EReal), ((∑ q, Real.exp (x q - b) : ℝ) : EReal), ((∑ q, Real.exp (x q - b) * y q : ℝ) : EReal)) := by
  unfold step
  simp only [hb, max_eq_right bot_le, mul_zero, zero_add, coe_sum, ← EReal.coe_sub, Ideal.exp_coe, EReal.coe_mul]

/-- A later block: from a real state (M, L, O) the new maximum is max M b, the old sums are multiplied by
    exp (M - max M b) and the block's terms, relative to the new maximum, are added: all inside the reals. -/
theorem step_coe (x y : Fin B → ℝ) (b M L O : ℝ) (hb : blockMax (fun q => (x q : EReal)) = (b : EReal)) :
    step (fun q => (x q : EReal)) (fun q => (y q : EReal)) ((M : EReal), (L : EReal), (O : EReal)) =
      (((max M b : ℝ) : EReal),
       ((Real.exp (M - max M b) * L + ∑ q, Real.exp (x q - max M b) : ℝ) : EReal),
       ((Real.exp (M - max M b) * O + ∑ q, Real.exp (x q - max M b) * y q : ℝ) : EReal)) := by
  unfold step
  simp only [hb, ← coe_max, EReal.coe_add, EReal.coe_mul, coe_sum, ← EReal.coe_sub, Ideal.exp_coe]

/-! ## The sums over the keys seen so far -/

/-- Moving the sum over the first n keys from the maximum M to M' and adding the next block's terms gives the sum over
    the first n + B keys relative to M', because exp (M - M') · exp (x - M) = exp (x - M'). -/
theorem rescale_sum (τ c : ℕ → ℝ) (n : ℕ) (M M' : ℝ) :
    Real.exp (M - M') * ∑ k ∈ Finset.range n, Real.exp (τ k - M) * c k
        + ∑ q : Fin B, Real.exp (τ (n + q.val) - M') * c (n + q.val)
      = ∑ k ∈ Finset.range (n + B), Real.exp (τ k - M') * c k := by
  rw [Finset.sum_range_add, Fin.sum_univ_eq_sum_range (fun q => Real.exp (τ (n + q) - M') * c (n + q)) B,
    Finset.mul_sum]
  congr 1
  refine Finset.sum_congr rfl fun k _ => ?_
  rw [← mul_assoc, ← Real.exp_add]
  congr 2
  ring

/-- The same without the values. -/
theorem rescale_sum_one (τ : ℕ → ℝ) (n : ℕ) (M M' : ℝ) :
    Real.exp (M - M') * ∑ k ∈ Finset.range n, Real.exp (τ k - M) + ∑ q : Fin B, Real.exp (τ (n + q.val) - M')
      = ∑ k ∈ Finset.range (n + B), Real.exp (τ k - M') := by
  simpa using rescale_sum (B := B) τ (fun _ => 1) n M M'

/-! ## The invariant -/

/-- After the first n keys (scores τ k, values ν k): the running maximum is a real M that bounds the scores seen and is
    one of them, and the two running sums are the sums over those keys relative to M. -/
def Inv (τ ν : ℕ → ℝ) (n : ℕ) (st : EReal × EReal × EReal) : Prop :=
  ∃ M : ℝ, st = ((M : EReal), ((∑ k ∈ Finset.range n, Real.exp (τ k - M) : ℝ) : EReal),
      ((∑ k ∈ Finset.range n, Real.exp (τ k - M) * ν k : ℝ) : EReal)) ∧
    (∀ k, k < n → τ k ≤ M) ∧ ∃ k, k < n ∧ τ k = M

/-- The invariant holds after the first block. -/
theorem inv_first (hB : 0 < B) (τ ν : ℕ → ℝ) (s w : Fin B → EReal)
    (hs : ∀ q : Fin B, s q = ((τ q.val : ℝ) : EReal)) (hw : ∀ q : Fin B, w q = ((ν q.val : ℝ) : EReal)) :
    Inv τ ν B (step s w (⊥, 0, 0)) := by
  obtain rfl : s = fun q : Fin B => ((τ q.val : ℝ) : EReal) := funext hs
  obtain rfl : w = fun q : Fin B => ((ν q.val : ℝ) : EReal) := funext hw
  obtain ⟨q0, hq0, hle⟩ := blockMax_coe hB fun q : Fin B => τ q.val
  refine ⟨τ q0.val, ?_, fun k hk => hle ⟨k, hk⟩, q0.val, q0.isLt, rfl⟩
  rw [step_bot (fun q : Fin B => τ q.val) (fun q : Fin B => ν q.val) (τ q0.val) hq0,
    Fin.sum_univ_eq_sum_range (fun k => Real.exp (τ k - τ q0.val)) B,
    Fin.sum_univ_eq_sum_range (fun k => Real.exp (τ k - τ q0.val) * ν k) B]

/-- One more block keeps the invariant. -/
theorem inv_next (hB : 0 < B) (τ ν : ℕ → ℝ) (n : ℕ) (s w : Fin B → EReal)
    (hs : ∀ q : Fin B, s q = ((τ (n + q.val) : ℝ) : EReal)) (hw : ∀ q : Fin B, w q = ((ν (n + q.val) : ℝ) : EReal))
    (st : EReal × EReal × EReal) (h : Inv τ ν n st) : Inv τ ν (n + B) (step s w st) := by
  obtain rfl : s = fun q : Fin B => ((τ (n + q.val) : ℝ) : EReal) := funext hs
  obtain rfl : w = fun q : Fin B => ((ν (n + q.val) : ℝ) : EReal) := funext hw
  obtain ⟨M, rfl, hle, k1, hk1, hk1M⟩ := h
  obtain ⟨q0, hq0, hq0le⟩ := blockMax_coe hB fun q : Fin B => τ (n + q.val)
  refine ⟨max M (τ (n + q0.val)), ?_, ?_, ?_⟩
  · rw [step_coe (fun q : Fin B => τ (n + q.val)) (fun q : Fin B => ν (n + q.val)) (τ (n + q0.val)) M _ _ hq0,
      rescale_sum_one, rescale_sum]
  · intro k hk
    by_cases hkn : k < n
    · exact (hle k hkn).trans (le_max_left _ _)
    · have hq : k - n < B := by omega
      have := hq0le ⟨k - n, hq⟩
      have hkk : n + (k - n) = k := by omega
      simp only [hkk] at this
      exact this.trans (le_max_right _ _)
  · rcases le_total M (τ (n + q0.val)) with hc | hc
    · exact ⟨n + q0.val, by have := q0.isLt; omega, (max_eq_right hc).symm⟩
    · exact ⟨k1, by omega, by rw [max_eq_left hc]; exact hk1M⟩

/-- The invariant after every block up to the last. -/
theorem inv_run (hB : 0 < B) (τ ν : ℕ → ℝ) (s w : ℕ → Fin B → EReal) (nb : ℕ)
    (hs : ∀ j, j < nb → ∀ q : Fin B, s j q = ((τ (j * B + q.val) : ℝ) : EReal))
    (hw : ∀ j, j < nb → ∀ q : Fin B, w j q = ((ν (j * B + q.val) : ℝ) : EReal)) :
    ∀ j, j < nb → Inv τ ν ((j + 1) * B) (run s w (j + 1)) := by
  intro j
  induction j with
  | zero =>
    intro h0
    rw [run_succ, run_zero, zero_add, one_mul]
    exact inv_first hB τ ν (s 0) (w 0) (fun q => by simpa using hs 0 h0 q) (fun q => by simpa using hw 0 h0 q)
  | succ j ih =>
    intro hj
    have hmul : (j + 1 + 1) * B = (j + 1) * B + B := by ring
    rw [run_succ, hmul]
    exact inv_next hB τ ν ((j + 1) * B) (s (j + 1)) (w (j + 1)) (hs (j + 1) hj) (hw (j + 1) hj) _
      (ih (Nat.lt_of_succ_lt hj))

/-- THE LAW: the row's `N = nb · B` keys taken block by block (block `j`, position `q` is key `j * B + q`) end, after all
    `nb` blocks, in a state whose quotient `o / l` is the row's attention output with the weighted sum divided once by the
    normaliser — when every score and every value is a real. -/
theorem run_quotient {nb N : ℕ} (hN : N = nb * B) (hnb : 0 < nb) (hB : 0 < B) (t v : Fin N → EReal)
    (ht : ∀ k, IsReal (t k)) (hv : ∀ k, IsReal (v k)) (s w : ℕ → Fin B → EReal)
    (hs : ∀ (j : ℕ) (q : Fin B) (h : j * B + q.val < N), s j q = t ⟨j * B + q.val, h⟩)
    (hw : ∀ (j : ℕ) (q : Fin B) (h : j * B + q.val < N), w j q = v ⟨j * B + q.val, h⟩) :
    Ideal.div (run s w nb).2.2 (run s w nb).2.1 = attnDeferred t v := by
  choose t' ht' using ht
  choose v' hv' using hv
  obtain rfl : t = fun k => (t' k : EReal) := funext ht'
  obtain rfl : v = fun k => (v' k : EReal) := funext hv'
  -- the scores and the values as functions of a natural-number key (zero past the row)
  let τ : ℕ → ℝ := fun k => if h : k < N then t' ⟨k, h⟩ else 0
  let ν : ℕ → ℝ := fun k => if h : k < N then v' ⟨k, h⟩ else 0
  have hτ : ∀ k : Fin N, τ k.val = t' k := fun k => dif_pos k.isLt
  have hν : ∀ k : Fin N, ν k.val = v' k := fun k => dif_pos k.isLt
  have hkey : ∀ j, j < nb → ∀ q : Fin B, j * B + q.val < N := fun j hj q => by
    rw [hN]
    calc j * B + q.val < j * B + B := Nat.add_lt_add_left q.isLt _
      _ = (j + 1) * B := by ring
      _ ≤ nb * B := Nat.mul_le_mul_right B hj
  have hs' : ∀ j, j < nb → ∀ q : Fin B, s j q = ((τ (j * B + q.val) : ℝ) : EReal) := fun j hj q => by
    rw [hs j q (hkey j hj q)]
    exact congrArg Real.toEReal (hτ ⟨j * B + q.val, hkey j hj q⟩).symm
  have hw' : ∀ j, j < nb → ∀ q : Fin B, w j q = ((ν (j * B + q.val) : ℝ) : EReal) := fun j hj q => by
    rw [hw j q (hkey j hj q)]
    exact congrArg Real.toEReal (hν ⟨j * B + q.val, hkey j hj q⟩).symm
  -- the invariant after the last block
  obtain ⟨M, hst, hle, k1, hk1, hk1M⟩ := inv_run hB τ ν s w nb hs' hw' (nb - 1) (by omega)
  have hnb1 : nb - 1 + 1 = nb := by omega
  rw [hnb1, ← hN] at hst hle hk1
  -- the running maximum is the row's maximum
  have hN0 : 0 < N := by rw [hN]; exact Nat.mul_pos hnb hB
  obtain ⟨k0, hk0, hk0le⟩ := blockMax_coe hN0 t'
  have hM : rowMax (fun k => (t' k : EReal)) = (M : EReal) := by
    have : t' k0 = M := le_antisymm (by rw [← hτ k0]; exact hle k0.val k0.isLt)
      (by rw [← hk1M]; exact (hτ ⟨k1, hk1⟩).le.trans (hk0le ⟨k1, hk1⟩))
    rw [← this]; exact hk0
  -- the two sums of the row are the two running sums
  have hden : rowDen (fun k => (t' k : EReal)) = ((∑ k ∈ Finset.range N, Real.exp (τ k - M) : ℝ) : EReal) := by
    unfold rowDen rowWt
    rw [hM, ← Fin.sum_univ_eq_sum_range (fun k => Real.exp (τ k - M)) N, coe_sum]
    exact Finset.sum_congr rfl fun k _ => by rw [hτ k, ← EReal.coe_sub, Ideal.exp_coe]
  have hnum : (∑ k, rowWt (fun k => (t' k : EReal)) k * (v' k : EReal))
      = ((∑ k ∈ Finset.range N, Real.exp (τ k - M) * ν k : ℝ) : EReal) := by
    unfold rowWt
    rw [hM, ← Fin.sum_univ_eq_sum_range (fun k => Real.exp (τ k - M) * ν k) N, coe_sum]
    exact Finset.sum_congr rfl fun k _ => by rw [hτ k, hν k, ← EReal.coe_sub, Ideal.exp_coe, EReal.coe_mul]
  unfold attnDeferred
  rw [hden, hnum, hst]

end Cert.OnlineSoftmax

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibRowSumZero.lean ====
/-
  A float sum of an [a, b] array along its second axis, started from the zero pattern, read at a row — with the
  accumulator's neutrality stated as the equation of the two zero patterns, the form in which a printed kernel body carries
  it (a lemma whose hypothesis is stated through the additive neutral element does not rewrite such a term) —, and a
  vector's reciprocal square root read at an index. General facts: nothing here mentions a program.

  • `rowSum_zero_apply`: at row `p` the sum is the sum over `k` of the array at `(p, k)`.
  • `rsqrt_apply`: the reciprocal square root of a vector, at an index, is that of its entry.
-/
import Idealize.ShloMosaic.Lib.ValueIdx
import Idealize.ShloMosaic.PureOps.Ideal.Laws

noncomputable section

namespace Cert.RowSumZero

open Idealize.ShloMosaic Idealize.ShloMosaic.ValueIdx

/-- The sum of an `[a, b]` array along its second axis from a zero accumulator reads, at `p`, the sum over `k` of the
    array at `(p, k)` (the accumulator's neutrality stated as the equation of the two zero patterns). -/
theorem rowSum_zero_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = 0x00000000#32) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- A vector's reciprocal square root, entry by entry. -/
theorem rsqrt_apply {s : Shape} {φ : FTy} (v : FVec Ideal s φ) (i : s.Idx) : rsqrt v i = Ideal.rsqrt (v i) := rfl

end Cert.RowSumZero

end
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.KernelStep.lean ====
/-
  One grid point's arithmetic read at coordinates: it is one step of the block-by-block softmax recurrence.

  For row `p` of the point's 2048-row block and column `d` of the 1024 embedding columns, the body's scores are
      blkScore p q = (Σ_f x0(p, f) · x1(f, q)) + x2(0, q)        (q over the point's 640 tokens),
  the block's values are the embedding rows `x3(q, d)`, and what the body stores in the maximum column, the normaliser
  column and the output block at (p, ·) is the recurrence's step applied to what those held before. A change of float
  format is the identity on the extended reals, so the weights enter the second product as computed.
-/
import proofs.«159708_j12429635355371_2_alg».proof.Proof.Gen.KernelIdeal.Frame
import proofs.«159708_j12429635355371_2_alg».proof.Proof.LibOnlineSoftmax
import proofs.«159708_j12429635355371_2_alg».proof.Proof.LibPlainMatmul
import proofs.«159708_j12429635355371_2_alg».proof.Proof.LibRowOps
import proofs.«159708_j12429635355371_2_alg».proof.Proof.LibRowSumZero
import proofs.«159708_j12429635355371_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.StepValue

open Cert.KernelIdeal Cert.KernelIdeal.Gen Cert.OnlineSoftmax

/-- The score of the block's token `q` for row `p`. -/
def blkScore (x0 : Vec Ideal S2048x256 .bf16) (x1 : Vec Ideal S256x640 .bf16) (x2 : Vec Ideal S1x640 .f32)
    (p : Fin 2048) (q : Fin 640) : EReal :=
  (∑ f : Fin 256, x0 (ix2 p f) * x1 (ix2 f q)) + x2 (ix2 (0 : Fin 1) q)

section
variable (x0 : Vec Ideal S2048x256 .bf16) (x1 : Vec Ideal S256x640 .bf16) (x2 : Vec Ideal S1x640 .f32)
  (x3 : Vec Ideal S640x1024 .bf16) (m0 l0 : Vec Ideal S2048x1 .f32) (o0 : Vec Ideal S2048x1024 .f32)
  (p : Fin 2048) (q : Fin 640) (d : Fin 1024)

/-- The scores: the row of the query block against the column of the weight block, plus the bias. -/
theorem scores_apply : k0_pay7 (F := Ideal) x0 x1 x2 (ix2 p q) = blkScore x0 x1 x2 p q := by
  unfold k0_pay7 blkScore
  refine congrArg₂ (· + ·) ?_ ?_
  · simp only [shapeCast_self]
    exact Cert.PlainMatmul.matmul_zero_apply _ none x0 x1 p q
  · simp only [shapeCast_self]
    exact broadcastTo_1b_ab_apply x2 _ p q

/-- The new running maximum of row `p`: the old one against the maximum of the block's scores. -/
theorem newMax_apply : k0_pay8 (F := Ideal) x0 x1 x2 m0 (ix2 p (0 : Fin 1))
    = max (m0 (ix2 p (0 : Fin 1))) (blockMax (blkScore x0 x1 x2 p)) := by
  unfold k0_pay8
  refine congrArg (max (m0 (ix2 p (0 : Fin 1)))) ?_
  refine (Cert.Keepdims.shapeCast_a_a1_apply _ _ p 0).trans ?_
  refine (Cert.RowOps.laneMax_apply _ _ _ _ _ p).trans ?_
  unfold blockMax
  rw [Cert.SoftmaxRow.ofBits_negInf]
  exact congrArg (fun f => (Finset.univ : Finset (Fin 640)).fold max ⊥ f) (funext fun c => scores_apply x0 x1 x2 p c)

/-- The rescaling factor of row `p`: the exponential of the old maximum less the new one. -/
theorem rescale_apply : k0_pay9 (F := Ideal) x0 x1 x2 m0 (ix2 p (0 : Fin 1))
    = Ideal.exp (m0 (ix2 p (0 : Fin 1)) - k0_pay8 (F := Ideal) x0 x1 x2 m0 (ix2 p (0 : Fin 1))) := rfl

/-- The weight of token `q` for row `p`: the exponential of its score less the new maximum. -/
theorem weight_apply : k0_pay10 (F := Ideal) x0 x1 x2 m0 (ix2 p q)
    = Ideal.exp (blkScore x0 x1 x2 p q - k0_pay8 (F := Ideal) x0 x1 x2 m0 (ix2 p (0 : Fin 1))) := by
  unfold k0_pay10
  show Ideal.exp (k0_pay7 (F := Ideal) x0 x1 x2 (ix2 p q) - broadcastTo S2048x640 (k0_pay8 (F := Ideal) x0 x1 x2 m0) _ (ix2 p q)) = _
  rw [scores_apply, Cert.Keepdims.broadcastTo_a1_ab_apply]

/-- The new normaliser of row `p`: the old one rescaled, plus the block's weights. -/
theorem newDen_apply : k0_pay11 (F := Ideal) x0 x1 x2 m0 l0 (ix2 p (0 : Fin 1))
    = k0_pay9 (F := Ideal) x0 x1 x2 m0 (ix2 p (0 : Fin 1)) * l0 (ix2 p (0 : Fin 1))
      + ∑ q : Fin 640, k0_pay10 (F := Ideal) x0 x1 x2 m0 (ix2 p q) := by
  unfold k0_pay11
  simp only [shapeCast_self]
  refine congrArg₂ (· + ·) rfl ?_
  refine (Cert.Keepdims.shapeCast_a_a1_apply _ _ p 0).trans ?_
  exact Cert.RowSumZero.rowSum_zero_apply _ _ _ _ p

/-- The new output entry `(p, d)`: the old one rescaled, plus the block's weights against column `d` of the
    embedding block. -/
theorem newOut_apply : k0_pay1 (F := Ideal) (k0_pay12 (F := Ideal) x0 x1 x2 m0 o0) (k0_pay13 (F := Ideal) x0 x1 x2 m0) x3 (ix2 p d)
    = k0_pay9 (F := Ideal) x0 x1 x2 m0 (ix2 p (0 : Fin 1)) * o0 (ix2 p d)
      + ∑ q : Fin 640, k0_pay10 (F := Ideal) x0 x1 x2 m0 (ix2 p q) * x3 (ix2 q d) := by
  unfold k0_pay1 k0_pay12 k0_pay13
  simp only [shapeCast_self]
  refine congrArg₂ (· + ·) ?_ ?_
  · exact congrArg (· * o0 (ix2 p d)) (Cert.Keepdims.broadcastTo_a1_ab_apply _ _ p d)
  · exact Cert.PlainMatmul.matmul_zero_apply _ none _ x3 p d

/-- What the body stores at row `p` (and column `d`) is the recurrence's step of what was there. -/
theorem stored_eq_step :
    (k0_pay2 (F := Ideal) (k0_pay8 (F := Ideal) x0 x1 x2 m0) (ix2 p (0 : Fin 1)),
      k0_pay11 (F := Ideal) x0 x1 x2 m0 l0 (ix2 p (0 : Fin 1)),
      k0_pay1 (F := Ideal) (k0_pay12 (F := Ideal) x0 x1 x2 m0 o0) (k0_pay13 (F := Ideal) x0 x1 x2 m0) x3 (ix2 p d))
    = step (blkScore x0 x1 x2 p) (fun q => x3 (ix2 q d)) (m0 (ix2 p (0 : Fin 1)), l0 (ix2 p (0 : Fin 1)), o0 (ix2 p d)) := by
  have hm : k0_pay2 (F := Ideal) (k0_pay8 (F := Ideal) x0 x1 x2 m0) (ix2 p (0 : Fin 1))
      = max (m0 (ix2 p (0 : Fin 1))) (blockMax (blkScore x0 x1 x2 p)) := by
    unfold k0_pay2
    simp only [shapeCast_self]
    exact newMax_apply x0 x1 x2 m0 p
  unfold step
  refine Prod.ext hm (Prod.ext ?_ ?_)
  · show k0_pay11 (F := Ideal) x0 x1 x2 m0 l0 (ix2 p (0 : Fin 1)) = _
    rw [newDen_apply, rescale_apply, newMax_apply]
    refine congrArg₂ (· + ·) rfl (Finset.sum_congr rfl fun q _ => ?_)
    rw [weight_apply, newMax_apply]
  · show k0_pay1 (F := Ideal) (k0_pay12 (F := Ideal) x0 x1 x2 m0 o0) (k0_pay13 (F := Ideal) x0 x1 x2 m0) x3 (ix2 p d) = _
    rw [newOut_apply, rescale_apply, newMax_apply]
    refine congrArg₂ (· + ·) rfl (Finset.sum_congr rfl fun q _ => ?_)
    rw [weight_apply, newMax_apply]

/-- The last step's division: the output entry over the row's normaliser. -/
theorem quotient_apply (o1 : Vec Ideal S2048x1024 .f32) (l1 : Vec Ideal S2048x1 .f32) :
    k0_pay3 (F := Ideal) o1 l1 (ix2 p d) = Ideal.div (o1 (ix2 p d)) (l1 (ix2 p (0 : Fin 1))) := by
  unfold k0_pay3
  simp only [shapeCast_self]
  exact congrArg (Ideal.div (o1 (ix2 p d))) (Cert.Keepdims.broadcastTo_a1_ab_apply _ _ p d)

/-- The reset values read at an index: the maximum column at `-∞`, the normaliser column and the output block at 0. -/
theorem resetMax_apply (y : S2048x1.Idx) : k0_pay5 (F := Ideal) y = ⊥ := by
  unfold k0_pay5
  simp only [shapeCast_self]
  exact Cert.SoftmaxRow.ofBits_negInf

theorem resetDen_apply (y : S2048x1.Idx) : k0_pay6 (F := Ideal) y = 0 := by
  unfold k0_pay6
  simp only [shapeCast_self]
  exact Ideal.ofBits_zero_f32

theorem resetOut_apply (y : S2048x1024.Idx) : k0_pay4 (F := Ideal) y = 0 := by
  unfold k0_pay4
  exact Ideal.ofBits_zero_f32

end

end Cert.KernelIdeal.StepValue

end
-- ==== Proof.KernelBlocks.lean ====
/-
  The blocks the grid points read, against the whole arrays.

  The grid is 4 row blocks by 50 token blocks, point `t` being row block `t / 50` and token block `t % 50`. At point `t`
  the query window holds rows `(t / 50) · 2048 + p` of the [8192, 256] query array, the weight window columns
  `(t % 50) · 640 + q` of the [256, 32000] weights, the bias window the same columns of the [1, 32000] bias row, and the
  embedding window rows `(t % 50) · 640 + q` of the [32000, 1024] table: a block's coordinate is always the block index
  times the block size plus the coordinate inside the block.
-/
import proofs.«159708_j12429635355371_2_alg».proof.Proof.Gen.KernelIdeal.Frame
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The five index maps over the grid: which block each window shows at point `t`. -/
theorem idx_facts : ∀ t : Fin cfg0.N,
    (win0_0.index t 0 = t.val / 50 ∧ win0_0.index t 1 = 0) ∧ (win0_1.index t 0 = 0 ∧ win0_1.index t 1 = t.val % 50)
    ∧ (win0_2.index t 0 = 0 ∧ win0_2.index t 1 = t.val % 50) ∧ (win0_3.index t 0 = t.val % 50 ∧ win0_3.index t 1 = 0)
    ∧ (win0_4.index t 0 = t.val / 50 ∧ win0_4.index t 1 = 0) :=
  (by decide +kernel : ∀ t : Fin grid0.N, _)

/-- The query block's entry `(p, f)` is the query array's entry in row `(t / 50) · 2048 + p`. -/
theorem query_block (c : Dev nD) (t : Fin cfg0.N) (p : Fin 2048) (f : Fin 256) (R : Fin 8192)
    (hR : R.val = t.val / 50 * 2048 + p.val) :
    (iblk m c 0 t : Vec F S2048x256 .bf16) (ix2 p f) = (V m c main_v3 : Vec F S8192x256 .bf16) (ix2 R f) := by
  unfold iblk
  rw [View.read_apply]
  show V m c main_v3 _ = V m c main_v3 _
  congr 1
  funext a
  apply Fin.ext
  match a with
  | ⟨0, _⟩ => show win0_0.index t 0 * 2048 + 1 * p.val = R.val; rw [(idx_facts t).1.1, hR]; omega
  | ⟨1, _⟩ => show win0_0.index t 1 * 256 + 1 * f.val = f.val; rw [(idx_facts t).1.2]; omega

/-- The weight block's entry `(f, q)` is the weights' entry in column `(t % 50) · 640 + q`. -/
theorem weight_block (c : Dev nD) (t : Fin cfg0.N) (f : Fin 256) (q : Fin 640) (k : Fin 32000)
    (hk : k.val = t.val % 50 * 640 + q.val) :
    (iblk m c 1 t : Vec F S256x640 .bf16) (ix2 f q) = (V m c main_v4 : Vec F S256x32000 .bf16) (ix2 f k) := by
  unfold iblk
  rw [View.read_apply]
  show V m c main_v4 _ = V m c main_v4 _
  congr 1
  funext a
  apply Fin.ext
  match a with
  | ⟨0, _⟩ => show win0_1.index t 0 * 256 + 1 * f.val = f.val; rw [(idx_facts t).2.1.1]; omega
  | ⟨1, _⟩ => show win0_1.index t 1 * 640 + 1 * q.val = k.val; rw [(idx_facts t).2.1.2, hk]; omega

/-- The bias block's entry `(0, q)` is the bias row's entry in column `(t % 50) · 640 + q`. -/
theorem bias_block (c : Dev nD) (t : Fin cfg0.N) (q : Fin 640) (k : Fin 32000)
    (hk : k.val = t.val % 50 * 640 + q.val) :
    (iblk m c 2 t : Vec F S1x640 .f32) (ix2 (0 : Fin 1) q) = (V m c main_v6 : Vec F S1x32000 .f32) (ix2 (0 : Fin 1) k) := by
  unfold iblk
  rw [View.read_apply]
  show V m c main_v6 _ = V m c main_v6 _
  congr 1
  funext a
  apply Fin.ext
  match a with
  | ⟨0, _⟩ => show win0_2.index t 0 * 1 + 1 * 0 = 0; rw [(idx_facts t).2.2.1.1]
  | ⟨1, _⟩ => show win0_2.index t 1 * 640 + 1 * q.val = k.val; rw [(idx_facts t).2.2.1.2, hk]; omega

/-- The embedding block's entry `(q, d)` is the table's entry in row `(t % 50) · 640 + q`. -/
theorem embed_block (c : Dev nD) (t : Fin cfg0.N) (q : Fin 640) (d : Fin 1024) (k : Fin 32000)
    (hk : k.val = t.val % 50 * 640 + q.val) :
    (iblk m c 3 t : Vec F S640x1024 .bf16) (ix2 q d) = (V m c main_v5 : Vec F S32000x1024 .bf16) (ix2 k d) := by
  unfold iblk
  rw [View.read_apply]
  show V m c main_v5 _ = V m c main_v5 _
  congr 1
  funext a
  apply Fin.ext
  match a with
  | ⟨0, _⟩ => show win0_3.index t 0 * 640 + 1 * q.val = k.val; rw [(idx_facts t).2.2.2.1.1, hk]; omega
  | ⟨1, _⟩ => show win0_3.index t 1 * 1024 + 1 * d.val = d.val; rw [(idx_facts t).2.2.2.1.2]; omega

end Cert.KernelIdeal.Blocks

end
-- ==== Proof.KernelFold.lean ====
/-
  The grid's accumulation is the block-by-block softmax recurrence, row by row.

  Fix a row `R` of the 8192 query rows and an embedding column `d`. Its scores are
      rowScore R k = (Σ_f Q(R, f) · Wt(f, k)) + Bs(0, k)         (k over the 32000 tokens),
  cut into 50 blocks of 640 (`blockScores R j q` is token `j · 640 + q`), and its values are the embedding column
  (`blockValues d j q`). Row block `r` is swept by the 50 grid points `r · 50 + j`; after the point with token block `j`
  the maximum column, the normaliser column and the output block hold, at row `p` of the block (row `R = r · 2048 + p`),
  the recurrence's state after `j + 1` blocks — and at the sweep's last point the output block holds the quotient of
  the weighted sum by the normaliser. By induction on the point: a sweep's first point steps from the reset values, a
  later point from what the point before left.
-/
import proofs.«159708_j12429635355371_2_alg».proof.Proof.KernelPieces
import proofs.«159708_j12429635355371_2_alg».proof.Proof.KernelStep
import proofs.«159708_j12429635355371_2_alg».proof.Proof.KernelBlocks

set_option maxRecDepth 16384

noncomputable section

open Idealize.ShloMosaic Idealize.ShloMosaic.TcCoe Idealize.SL.Sem Idealize.ShloMosaic.ValueIdx

namespace Cert.KernelIdeal.Fold

open Cert.KernelIdeal Cert.KernelIdeal.Gen Cert.OnlineSoftmax Cert.KernelIdeal.StepValue

/-- The score of token `k` for query row `R`. -/
def rowScore (Q : Vec Ideal S8192x256 .bf16) (Wt : Vec Ideal S256x32000 .bf16) (Bs : Vec Ideal S1x32000 .f32)
    (R : Fin 8192) (k : Fin 32000) : EReal :=
  (∑ f : Fin 256, Q (ix2 R f) * Wt (ix2 f k)) + Bs (ix2 (0 : Fin 1) k)

/-- Row `R`'s scores by token block: position `q` of block `j` is token `j · 640 + q` (zero off the array, never read). -/
def blockScores (Q : Vec Ideal S8192x256 .bf16) (Wt : Vec Ideal S256x32000 .bf16) (Bs : Vec Ideal S1x32000 .f32)
    (R : ℕ) (j : ℕ) (q : Fin 640) : EReal :=
  if h : R < 8192 ∧ j * 640 + q.val < 32000 then rowScore Q Wt Bs ⟨R, h.1⟩ ⟨j * 640 + q.val, h.2⟩ else 0

/-- Embedding column `d` by token block. -/
def blockValues (Em : Vec Ideal S32000x1024 .bf16) (d : Fin 1024) (j : ℕ) (q : Fin 640) : EReal :=
  if h : j * 640 + q.val < 32000 then Em (ix2 ⟨j * 640 + q.val, h⟩ d) else 0

variable (m : (ℓ : Loc nD τ sig) → Buf (Elt Ideal) ℓ)

theorem N200 : cfg0.N = 200 := N_0

/-- The scores a point's blocks give row `p` are row `(t / 50) · 2048 + p`'s scores for token block `t % 50`. -/
theorem blkScore_eq (c : Dev nD) (t : Fin cfg0.N) (p : Fin 2048) :
    blkScore (iblk m c 0 t) (iblk m c 1 t) (iblk m c 2 t) p = blockScores (V m c main_v3) (V m c main_v4) (V m c main_v6) (t.val / 50 * 2048 + p.val) (t.val % 50) := by
  funext q
  have hN : t.val < 200 := lt_of_lt_of_eq t.isLt N200
  have hR : t.val / 50 * 2048 + p.val < 8192 := by have := p.isLt; omega
  have hk : t.val % 50 * 640 + q.val < 32000 := by have := q.isLt; omega
  unfold blkScore blockScores
  rw [dif_pos ⟨hR, hk⟩]
  unfold rowScore
  exact congrArg₂ (· + ·)
    (Finset.sum_congr rfl fun f _ => congrArg₂ (· * ·) (Blocks.query_block m c t p f ⟨_, hR⟩ rfl) (Blocks.weight_block m c t f q ⟨_, hk⟩ rfl))
    (Blocks.bias_block m c t q ⟨_, hk⟩ rfl)

/-- The values a point's embedding block gives column `d` are that column's token block `t % 50`. -/
theorem blkValues_eq (c : Dev nD) (t : Fin cfg0.N) (d : Fin 1024) :
    (fun q : Fin 640 => (iblk m c 3 t : Vec Ideal S640x1024 .bf16) (ix2 q d)) = blockValues (V m c main_v5) d (t.val % 50) := by
  funext q
  have hN : t.val < 200 := lt_of_lt_of_eq t.isLt N200
  have hk : t.val % 50 * 640 + q.val < 32000 := by have := q.isLt; omega
  unfold blockValues
  rw [dif_pos hk]
  exact Blocks.embed_block m c t q d ⟨_, hk⟩ rfl

/-- What a point stores at `(p, d)`, from columns `m0`, `l0` and block `o0`, is the recurrence's step for row
    `(t / 50) · 2048 + p`, token block `t % 50`. -/
theorem point_step (c : Dev nD) (t : Fin cfg0.N) (m0 l0 : Vec Ideal S2048x1 .f32) (o0 : Vec Ideal S2048x1024 .f32)
    (p : Fin 2048) (d : Fin 1024) :
    (k0_pay2 (F := Ideal) (k0_pay8 (F := Ideal) (iblk m c 0 t) (iblk m c 1 t) (iblk m c 2 t) m0) (ix2 p (0 : Fin 1)),
      k0_pay11 (F := Ideal) (iblk m c 0 t) (iblk m c 1 t) (iblk m c 2 t) m0 l0 (ix2 p (0 : Fin 1)),
      k0_pay1 (F := Ideal) (k0_pay12 (F := Ideal) (iblk m c 0 t) (iblk m c 1 t) (iblk m c 2 t) m0 o0) (k0_pay13 (F := Ideal) (iblk m c 0 t) (iblk m c 1 t) (iblk m c 2 t) m0) (iblk m c 3 t) (ix2 p d))
    = step (blockScores (V m c main_v3) (V m c main_v4) (V m c main_v6) (t.val / 50 * 2048 + p.val) (t.val % 50)) (blockValues (V m c main_v5) d (t.val % 50))
        (m0 (ix2 p (0 : Fin 1)), l0 (ix2 p (0 : Fin 1)), o0 (ix2 p d)) :=
  (stored_eq_step (iblk m c 0 t) (iblk m c 1 t) (iblk m c 2 t) (iblk m c 3 t) m0 l0 o0 p d).trans
    (congrArg₂ (fun s v => step s v (m0 (ix2 p (0 : Fin 1)), l0 (ix2 p (0 : Fin 1)), o0 (ix2 p d)))
      (blkScore_eq m c t p) (blkValues_eq m c t d))

/-- The state of row `p`, column `d` after the point at position `n`: (maximum, normaliser, output entry). -/
def stateAt (c : Dev nD) (n : ℕ) (hn : n < cfg0.N) (p : Fin 2048) (d : Fin 1024) : EReal × EReal × EReal :=
  ((outsAt0 m c n hn).2.1 (ix2 p (0 : Fin 1)), (outsAt0 m c n hn).2.2 (ix2 p (0 : Fin 1)), (outsAt0 m c n hn).1 (ix2 p d))

/-- A sweep's first point: the step from (-∞, 0, 0). -/
theorem first_point (c : Dev nD) (t : Fin cfg0.N) (h0 : t.val % 50 = 0) (h1 : ¬t.val % 50 = 49) (p : Fin 2048) (d : Fin 1024) :
    stateAt m c t.val t.isLt p d = step (blockScores (V m c main_v3) (V m c main_v4) (V m c main_v6) (t.val / 50 * 2048 + p.val) (t.val % 50)) (blockValues (V m c main_v5) d (t.val % 50))
          (⊥, 0, 0) := by
  unfold stateAt
  rw [outsAt0_A m c t h0 h1]
  dsimp only
  rw [Cert.KernelIdeal.Pieces.outA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t),
    Cert.KernelIdeal.Pieces.maxA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t),
    Cert.KernelIdeal.Pieces.denA (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) ((hcond0_0 t).mpr h0) (fun h => h1 ((hcond0_1 t).mp h)) (iblk m c 0 t) (iblk m c 1 t) (iblk m c 2 t) (iblk m c 3 t)]
  refine (point_step m c t (k0_pay5 (F := Ideal)) (k0_pay6 (F := Ideal)) (k0_pay4 (F := Ideal)) p d).trans ?_
  rw [resetMax_apply, resetDen_apply, resetOut_apply]

/-- A middle point: the step from what the point before left. -/
theorem middle_point (c : Dev nD) (t : Fin cfg0.N) (h0 : ¬t.val % 50 = 0) (h1 : ¬t.val % 50 = 49) (p : Fin 2048) (d : Fin 1024) :
    stateAt m c t.val t.isLt p d = step (blockScores (V m c main_v3) (V m c main_v4) (V m c main_v6) (t.val / 50 * 2048 + p.val) (t.val % 50)) (blockValues (V m c main_v5) d (t.val % 50))
          (stateAt m c (t.val - 1) (Nat.lt_of_le_of_lt (Nat.sub_le _ _) t.isLt) p d) := by
  unfold stateAt
  rw [outsAt0_B m c t h0 h1]
  dsimp only
  rw [Cert.KernelIdeal.Pieces.outB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    Cert.KernelIdeal.Pieces.maxB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    Cert.KernelIdeal.Pieces.denB (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2]
  exact point_step m c t (outsAt0 m c (t.val - 1) (Nat.lt_of_le_of_lt (Nat.sub_le _ _) t.isLt)).2.1 (outsAt0 m c (t.val - 1) (Nat.lt_of_le_of_lt (Nat.sub_le _ _) t.isLt)).2.2 (outsAt0 m c (t.val - 1) (Nat.lt_of_le_of_lt (Nat.sub_le _ _) t.isLt)).1 p d

/-- A sweep's last point: the maximum and the normaliser step as before; the output entry is the stepped weighted sum
    divided by the stepped normaliser. -/
theorem last_point (c : Dev nD) (t : Fin cfg0.N) (h0 : ¬t.val % 50 = 0) (h1 : t.val % 50 = 49) (p : Fin 2048) (d : Fin 1024) :
    stateAt m c t.val t.isLt p d
      = ((step (blockScores (V m c main_v3) (V m c main_v4) (V m c main_v6) (t.val / 50 * 2048 + p.val) (t.val % 50)) (blockValues (V m c main_v5) d (t.val % 50))
          (stateAt m c (t.val - 1) (Nat.lt_of_le_of_lt (Nat.sub_le _ _) t.isLt) p d)).1,
         (step (blockScores (V m c main_v3) (V m c main_v4) (V m c main_v6) (t.val / 50 * 2048 + p.val) (t.val % 50)) (blockValues (V m c main_v5) d (t.val % 50))
          (stateAt m c (t.val - 1) (Nat.lt_of_le_of_lt (Nat.sub_le _ _) t.isLt) p d)).2.1,
         Ideal.div (step (blockScores (V m c main_v3) (V m c main_v4) (V m c main_v6) (t.val / 50 * 2048 + p.val) (t.val % 50)) (blockValues (V m c main_v5) d (t.val % 50))
          (stateAt m c (t.val - 1) (Nat.lt_of_le_of_lt (Nat.sub_le _ _) t.isLt) p d)).2.2
          (step (blockScores (V m c main_v3) (V m c main_v4) (V m c main_v6) (t.val / 50 * 2048 + p.val) (t.val % 50)) (blockValues (V m c main_v5) d (t.val % 50))
          (stateAt m c (t.val - 1) (Nat.lt_of_le_of_lt (Nat.sub_le _ _) t.isLt) p d)).2.1) := by
  have hs := point_step m c t (outsAt0 m c (t.val - 1) (Nat.lt_of_le_of_lt (Nat.sub_le _ _) t.isLt)).2.1 (outsAt0 m c (t.val - 1) (Nat.lt_of_le_of_lt (Nat.sub_le _ _) t.isLt)).2.2 (outsAt0 m c (t.val - 1) (Nat.lt_of_le_of_lt (Nat.sub_le _ _) t.isLt)).1 p d
  unfold stateAt
  rw [outsAt0_C m c t h0 h1]
  dsimp only
  rw [Cert.KernelIdeal.Pieces.outC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    Cert.KernelIdeal.Pieces.maxC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
    Cert.KernelIdeal.Pieces.denC (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole cc0_scratch0) scM0_1 (Memref.isWhole_whole cc0_scratch1) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, quotient_apply]
  unfold stateAt at hs
  rw [← hs]

/-- The recurrence's state for block-row `p` of the sweep that position `n` belongs to, after the token blocks up to
    position `n`'s. -/
def runAt (c : Dev nD) (n : ℕ) (p : Fin 2048) (d : Fin 1024) : EReal × EReal × EReal :=
  run (blockScores (V m c main_v3) (V m c main_v4) (V m c main_v6) (n / 50 * 2048 + p.val)) (blockValues (V m c main_v5) d) (n % 50 + 1)

/-- One point onward inside a sweep: stepping the state after position `n` with position `n + 1`'s blocks gives the
    recurrence's next state (the row block is the same, the token block the next). -/
theorem step_onward (c : Dev nD) (n : ℕ) (hn : n + 1 < cfg0.N) (h0 : ¬(n + 1) % 50 = 0) (p : Fin 2048) (d : Fin 1024)
    (hst : stateAt m c n (Nat.lt_of_succ_lt hn) p d = runAt m c n p d) :
    step (blockScores (V m c main_v3) (V m c main_v4) (V m c main_v6) ((n + 1) / 50 * 2048 + p.val) ((n + 1) % 50)) (blockValues (V m c main_v5) d ((n + 1) % 50))
        (stateAt m c n (Nat.lt_of_succ_lt hn) p d) = runAt m c (n + 1) p d := by
  have hq : (n + 1) / 50 = n / 50 := by omega
  have hr : (n + 1) % 50 = n % 50 + 1 := by omega
  unfold runAt
  rw [hst, hq, hr, run_succ]
  rfl

/-- Before a sweep's last point the columns and the output block hold the recurrence's state. -/
theorem state_eq_run (c : Dev nD) : ∀ (n : ℕ) (hn : n < cfg0.N), n % 50 ≠ 49 → ∀ (p : Fin 2048) (d : Fin 1024),
    stateAt m c n hn p d = runAt m c n p d
  | 0, hn, _, p, d => first_point m c ⟨0, hn⟩ rfl (by dsimp only; decide) p d
  | n + 1, hn, h49, p, d => by
    by_cases h0 : (n + 1) % 50 = 0
    · refine (first_point m c ⟨n + 1, hn⟩ h0 h49 p d).trans ?_
      show step (blockScores (V m c main_v3) (V m c main_v4) (V m c main_v6) ((n + 1) / 50 * 2048 + p.val) ((n + 1) % 50)) (blockValues (V m c main_v5) d ((n + 1) % 50)) (⊥, 0, 0)
        = run (blockScores (V m c main_v3) (V m c main_v4) (V m c main_v6) ((n + 1) / 50 * 2048 + p.val)) (blockValues (V m c main_v5) d) ((n + 1) % 50 + 1)
      rw [h0]
      rfl
    · have hprev : n % 50 ≠ 49 := by omega
      refine (middle_point m c ⟨n + 1, hn⟩ h0 h49 p d).trans ?_
      exact step_onward m c n hn h0 p d (state_eq_run c n (Nat.lt_of_succ_lt hn) hprev p d)

/-- At a sweep's last point the output block holds, at `(p, d)`, the recurrence's final weighted sum divided by its final
    normaliser, all 50 token blocks taken. -/
theorem sweep_end (c : Dev nD) (n : ℕ) (hn : n < cfg0.N) (h49 : n % 50 = 49) (p : Fin 2048) (d : Fin 1024) :
    (outsAt0 m c n hn).1 (ix2 p d)
      = Ideal.div (run (blockScores (V m c main_v3) (V m c main_v4) (V m c main_v6) (n / 50 * 2048 + p.val)) (blockValues (V m c main_v5) d) 50).2.2 (run (blockScores (V m c main_v3) (V m c main_v4) (V m c main_v6) (n / 50 * 2048 + p.val)) (blockValues (V m c main_v5) d) 50).2.1 := by
  obtain ⟨k, rfl⟩ : ∃ k, n = k + 1 := ⟨n - 1, by omega⟩
  have h0 : ¬(k + 1) % 50 = 0 := by omega
  have hprev : k % 50 ≠ 49 := by omega
  have key := step_onward m c k hn h0 p d (state_eq_run m c k (Nat.lt_of_succ_lt hn) hprev p d)
  have hl := last_point m c ⟨k + 1, hn⟩ h0 h49 p d
  have h3 : (stateAt m c (k + 1) hn p d).2.2 = Ideal.div (runAt m c (k + 1) p d).2.2 (runAt m c (k + 1) p d).2.1 := by
    refine (congrArg (fun x => x.2.2) hl).trans ?_
    show Ideal.div (step (blockScores (V m c main_v3) (V m c main_v4) (V m c main_v6) ((k + 1) / 50 * 2048 + p.val) ((k + 1) % 50)) (blockValues (V m c main_v5) d ((k + 1) % 50))
        (stateAt m c k (Nat.lt_of_succ_lt hn) p d)).2.2 (step (blockScores (V m c main_v3) (V m c main_v4) (V m c main_v6) ((k + 1) / 50 * 2048 + p.val) ((k + 1) % 50)) (blockValues (V m c main_v5) d ((k + 1) % 50))
        (stateAt m c k (Nat.lt_of_succ_lt hn) p d)).2.1 = _
    rw [key]
  have h50 : (k + 1) % 50 + 1 = 50 := by omega
  unfold runAt at h3
  rw [h50] at h3
  exact h3

end Cert.KernelIdeal.Fold

end
-- ==== Proof.KernelCover.lean ====
/-
  The output window of the kernel against the whole result array, and the one operation after the region.

  The result array has 8192 rows of 1024 entries and is written in four row blocks of 2048 rows. The grid has 4 · 50
  points, point t being row block t / 50 and token block t % 50; the output window shows row block t / 50 at point t and
  is written back only at the last token block, t % 50 = 49. So row r of the array lies in the block written back at the
  point (r / 2048) · 50 + 49, and every entry of the array is covered by exactly such a block; entry (p, d) of the block
  at point t is entry ((t / 50) · 2048 + p, d) of the array. After the region the [8192, 1024] array is re-indexed in
  row-major order as a [4, 2048, 1024] array, and that is the program's result.
-/
import proofs.«159708_j12429635355371_2_alg».proof.Proof.KernelBlocks
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Cover

open Cert.KernelIdeal Cert.KernelIdeal.Gen

variable {F : FTy → Type} [FloatOps F]
variable (m : (ℓ : Loc nD τ sig) → Buf (Elt F) ℓ)

/-- An index of the result array is in the output block of point t exactly when, on each axis, its coordinate lies in
    the block's range: from (block index) · (block size), for (block size) places. -/
theorem mem_blk (t : Fin cfg0.N) (i : S8192x1024.Idx) :
    i ∈ ((cfg0.win 4).blk t).view.set ↔
      ∀ a : Fin 2, win0_4.index t a * S2048x1024.size a ≤ (i a).val
        ∧ (i a).val < win0_4.index t a * S2048x1024.size a + S2048x1024.size a := by
  show i ∈ ((View.whole main_v7).slice (win0_4.rect t)).set ↔ _
  rw [View.set_slice_whole, Rect.mem_set_unit]
  exact Iff.rfl

/-- Every entry of the result array is in the block written back at the last token block of its row block: row r at
    the point (r / 2048) · 50 + 49. -/
theorem cover (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 200 := N_0
  have h0 : (i 0).val < 8192 := (i 0).isLt
  have h1 : (i 1).val < 1024 := (i 1).isLt
  obtain ⟨t, ht⟩ : ∃ t : Fin cfg0.N, t.val = (i 0).val / 2048 * 50 + 49 := ⟨⟨_, by omega⟩, rfl⟩
  obtain ⟨e0, e1⟩ := (Blocks.idx_facts t).2.2.2.2
  refine ⟨t, (flush0_4 t).mpr (by omega), ?_⟩
  rw [mem_blk]
  intro a
  match a with
  | ⟨0, _⟩ =>
    show win0_4.index t 0 * 2048 ≤ (i 0).val ∧ (i 0).val < win0_4.index t 0 * 2048 + 2048
    rw [e0]; omega
  | ⟨1, _⟩ =>
    show win0_4.index t 1 * 1024 ≤ (i 1).val ∧ (i 1).val < win0_4.index t 1 * 1024 + 1024
    rw [e1]; omega

/-- Entry (p, d) of the output block of point t, read off contents G of the result array, is G's entry in row
    (t / 50) · 2048 + p. -/
theorem read_block (c : Dev nD) (G : Buf (Elt F) ((cfg0.win 4).arr.view.loc (c.tc : Thread nD τ))) (t : Fin cfg0.N)
    (p : Fin 2048) (d : Fin 1024) (R : Fin 8192) (hR : R.val = t.val / 50 * 2048 + p.val) :
    (((cfg0.win 4).blk t).view.read (Elt F) G : Vec F S2048x1024 .f32) (ix2 p d)
      = (G : Vec F S8192x1024 .f32) (ix2 R d) := by
  rw [View.read_apply]
  show (G : Vec F S8192x1024 .f32) _ = (G : Vec F S8192x1024 .f32) _
  congr 1
  funext a
  apply Fin.ext
  match a with
  | ⟨0, _⟩ => show win0_4.index t 0 * 2048 + 1 * p.val = R.val; rw [(Blocks.idx_facts t).2.2.2.2.1, hR]; omega
  | ⟨1, _⟩ => show win0_4.index t 1 * 1024 + 1 * d.val = d.val; rw [(Blocks.idx_facts t).2.2.2.2.2]; omega

/-- The program's result: the result array as the region leaves it, re-indexed in row-major order as [4, 2048, 1024]. -/
theorem tail_eq (c : Dev nD) :
    Pipeline.afterTail₀ cfgs (dats m) 0 (V0 m) [hostOps1] c main_v8
      = shapeCast S4x2048x1024 ((dats m 0 c).arrAt 4 cfg0.N : Vec F S8192x1024 .f32)
          shapeCasts_S8192x1024_S4x2048x1024 := by
  unfold Pipeline.afterTail₀
  show StableHlo.after hostOps1 _ (Proc.devRef .tc main_v8) = _
  after_results
  have hW : Pipeline.withArrays (cfgs 0).spec c (V0 m c) (fun w => (dats m 0 c).arrAt w (cfgs 0).N) (Proc.devRef .tc main_v7)
      = (dats m 0 c).arrAt 4 cfg0.N :=
    Pipeline.withArrays_arr spec0 launch0.win.arr_inj c (V0 m c) (fun w => (dats m 0 c).arrAt w (cfgs 0).N) 4
  rw [hW]
  generalize (dats m 0 c).arrAt 4 cfg0.N = A
  rfl

/-- The result is none of the pipeline's arrays: it is among the buffers the region passes by. -/
theorem result_mem : main_v8 ∈ Pipeline.restRefs sig (cfgs 0).spec :=
  Pipeline.mem_restRefs_of main_v8 (by decide) (by decide)

end Cert.KernelIdeal.Cover

end
-- ==== Proof.HostLayout.lean ====
/-
  The host operations around the kernel's one region, read as values.

  Before the region the program moves the input's feature axis last and merges its (time, node) axes into one row
  axis, giving X of shape [4, 2048, 256]; merges the batch axis into the rows as well, giving [8192, 256], row
  b · 2048 + l holding position (b, l); narrows that, the weights and the embedding table to a shorter format, which
  on the extended reals is the identity; and gives the bias a leading unit axis. After the region the [8192, 1024]
  result is split back into [4, 2048, 1024], position (b, l) reading row b · 2048 + l.
-/
import proofs.«159708_j12429635355371_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

namespace Cert.KernelIdeal.HostLayout

open Cert.KernelIdeal Cert.KernelIdeal.Gen Idealize.ShloMosaic Idealize.ShloMosaic.ValueIdx Idealize.ShloMosaic.TcCoe Idealize.SL.Sem

/-! ## The two row merges at coordinates, for any array -/

/-- Merging the batch axis into the rows: row `b · 2048 + l` of the `[8192, 256]` array is position `(b, l)`. -/
theorem rows_merge {α : Type} (x : S4x2048x256.Idx → α) (b : Fin 4) (l : Fin 2048) (f : Fin 256) :
    shapeCast S8192x256 x shapeCasts_S4x2048x256_S8192x256 (ix2 (⟨b.val * 2048 + l.val, by omega⟩ : Fin 8192) f) = x (ix3 b l f) :=
  shapeCast_apply x shapeCasts_S4x2048x256_S8192x256 _ _ (by
    rw [Shape.rowMajor_val_three, Shape.rowMajor_val_two]
    rfl)

/-- Splitting the rows back into (batch, row): position `(b, l)` of the `[4, 2048, 1024]` array is row `b · 2048 + l`. -/
theorem rows_split {α : Type} (Y : S8192x1024.Idx → α) (b : Fin 4) (l : Fin 2048) (d : Fin 1024) :
    shapeCast S4x2048x1024 Y shapeCasts_S8192x1024_S4x2048x1024 (ix3 b l d) = Y (ix2 (⟨b.val * 2048 + l.val, by omega⟩ : Fin 8192) d) :=
  shapeCast_apply Y shapeCasts_S8192x1024_S4x2048x1024 _ _ (by
    rw [Shape.rowMajor_val_three, Shape.rowMajor_val_two]
    rfl)

/-! ## What the region finds -/

variable (m : (ℓ : Loc nD τ sig) → Buf (Elt Ideal) ℓ) (c : Dev nD)

/-- The input with its feature axis moved last and its (time, node) axes merged into the row axis. -/
def X : S4x2048x256.Idx → EReal :=
  shapeCast S4x2048x256
    (transpose S4x32x64x256 [0, 3, 1, 2] (m ((c : Thread nD τ).loc main_arg0)) transposes_S4x64x256x32_S4x32x64x256_0_3_1_2)
    shapeCasts_S4x32x64x256_S4x2048x256

/-- The query rows the region finds: the narrowing of the `[8192, 256]` merge of `X`. -/
theorem query_eq : (V m c main_v3 : S8192x256.Idx → EReal)
    = truncf (F := Ideal) .bf16 (shapeCast S8192x256 (X m c) shapeCasts_S4x2048x256_S8192x256) bitsLt_bf16_f32 := by
  show StableHlo.after hostOps0 (fun b => m (c, b)) (Proc.devRef .tc main_v3) = _
  after_results
  rfl

/-- Row `b · 2048 + l` of the query rows is position `(b, l)` of `X`: the narrowing is the identity on the extended reals. -/
theorem query_at (b : Fin 4) (l : Fin 2048) (f : Fin 256) :
    (V m c main_v3 : S8192x256.Idx → EReal) (ix2 (⟨b.val * 2048 + l.val, by omega⟩ : Fin 8192) f) = X m c (ix3 b l f) := by
  rw [query_eq]
  exact rows_merge (X m c) b l f

/-- The weights the region finds are the weights as launched. -/
theorem weights_eq : (V m c main_v4 : S256x32000.Idx → EReal) = m ((c : Thread nD τ).loc main_arg2) := by
  show StableHlo.after hostOps0 (fun b => m (c, b)) (Proc.devRef .tc main_v4) = _
  after_results
  rfl

/-- The embedding table the region finds is the table as launched. -/
theorem embed_eq : (V m c main_v5 : S32000x1024.Idx → EReal) = m ((c : Thread nD τ).loc main_arg1) := by
  show StableHlo.after hostOps0 (fun b => m (c, b)) (Proc.devRef .tc main_v5) = _
  after_results
  rfl

/-- The bias the region finds: the launched bias under a leading unit axis. -/
theorem bias_eq : (V m c main_v6 : S1x32000.Idx → EReal)
    = shapeCast S1x32000 (m ((c : Thread nD τ).loc main_arg3)) shapeCasts_S32000_S1x32000 := by
  show StableHlo.after hostOps0 (fun b => m (c, b)) (Proc.devRef .tc main_v6) = _
  after_results
  rfl

/-- Entry `(0, k)` of the bias row is entry `k` of the bias. -/
theorem bias_at (k : Fin 32000) :
    (V m c main_v6 : S1x32000.Idx → EReal) (ix2 (0 : Fin 1) k) = m ((c : Thread nD τ).loc main_arg3) (ix1 k) := by
  rw [bias_eq]
  exact shapeCast_a_1a_apply _ shapeCasts_S32000_S1x32000 (0 : Fin 1) k

end Cert.KernelIdeal.HostLayout

end
-- ==== Proof.KernelRow.lean ====
/-
  One query row of the kernel's accumulation is the specification's mixture with the weighted sum divided once.

  For query row R = b · 2048 + l and embedding column d, the block-by-block recurrence over the 50 token blocks of 640
  ends in a state whose quotient (weighted sum over normaliser) is, by the law of the block-by-block softmax, the
  attention output of the row's 32000 scores against the embedding column. The row's scores, formed from the arrays the
  region finds, are the specification's scores of position (b, l): the query rows are the rows of X, the weights and
  the embedding table are the launched ones, and the bias row is the bias. All entries are reals when the four
  argument arrays are, since every array the region finds is a re-indexing of an argument array.
-/
import proofs.«159708_j12429635355371_2_alg».proof.Proof.KernelFold
import proofs.«159708_j12429635355371_2_alg».proof.Proof.HostLayout
import proofs.«159708_j12429635355371_2_alg».proof.Proof.Spec
import proofs.«159708_j12429635355371_2_alg».proof.Proof.LibOnlineSoftmax

noncomputable section

namespace Cert.KernelIdeal.Row

open Cert.KernelIdeal Cert.KernelIdeal.Gen Cert.KernelIdeal.Fold Cert.KernelIdeal.HostLayout Cert.OnlineSoftmax Cert.SoftmaxRow
open Idealize.ShloMosaic Idealize.ShloMosaic.ValueIdx Idealize.ShloMosaic.TcCoe Idealize.SL.Sem

/-! ## One row, over any arrays with real entries -/

/-- A row's score is a real when the queries, the weights and the bias are: a finite sum of products of reals, plus a real. -/
theorem rowScore_isReal (Q : Vec Ideal S8192x256 .bf16) (Wt : Vec Ideal S256x32000 .bf16) (Bs : Vec Ideal S1x32000 .f32)
    (hQ : ∀ i, IsReal (Q i)) (hW : ∀ i, IsReal (Wt i)) (hB : ∀ i, IsReal (Bs i)) (R : Fin 8192) (k : Fin 32000) :
    IsReal (rowScore Q Wt Bs R k) := by
  unfold rowScore
  exact (isReal_sum _ _ fun f => (hQ _).mul (hW _)).add (hB _)

/-- After the 50 token blocks of 640, the quotient of the running weighted sum by the running normaliser is the row's
    attention output over all 32000 tokens, the weighted sum divided once by the normaliser. -/
theorem row_closed (Q : Vec Ideal S8192x256 .bf16) (Wt : Vec Ideal S256x32000 .bf16) (Bs : Vec Ideal S1x32000 .f32)
    (Em : Vec Ideal S32000x1024 .bf16) (hQ : ∀ i, IsReal (Q i)) (hW : ∀ i, IsReal (Wt i)) (hB : ∀ i, IsReal (Bs i))
    (hE : ∀ i, IsReal (Em i)) (R : Fin 8192) (d : Fin 1024) :
    Ideal.div (run (blockScores Q Wt Bs R.val) (blockValues Em d) 50).2.2 (run (blockScores Q Wt Bs R.val) (blockValues Em d) 50).2.1
      = attnDeferred (rowScore Q Wt Bs R) (fun k : Fin 32000 => Em (ix2 k d)) :=
  run_quotient (nb := 50) (B := 640) (N := 32000) (by norm_num) (by norm_num) (by norm_num) _ _
    (rowScore_isReal Q Wt Bs hQ hW hB R) (fun k => hE _) _ _
    (fun j q h => by unfold blockScores; rw [dif_pos ⟨R.isLt, h⟩])
    (fun j q h => by unfold blockValues; rw [dif_pos h])

/-! ## The row over the arrays the region finds -/

variable (m : (ℓ : Loc nD τ sig) → Buf (Elt Ideal) ℓ) (c : Dev nD)

/-- Row `b · 2048 + l`'s score for token `k`, over the arrays the region finds, is the specification's score of position
    `(b, l)`: the query row is the row of `X`, the weights are the launched weights, the bias row is the bias. -/
theorem rowScore_eq_score (b : Fin 4) (l : Fin 2048) (k : Fin 32000) :
    rowScore (V m c main_v3) (V m c main_v4) (V m c main_v6) (⟨b.val * 2048 + l.val, by omega⟩ : Fin 8192) k
      = Cert.Mixture.score (X m c) (m ((c : Thread nD τ).loc main_arg2)) (m ((c : Thread nD τ).loc main_arg3)) b l k := by
  unfold rowScore Cert.Mixture.score
  exact congrArg₂ (· + ·)
    (Finset.sum_congr rfl fun f _ => congrArg₂ (· * ·) (query_at m c b l f) (congrFun (weights_eq m c) (ix2 f k)))
    (bias_at m c k)

/-- Every entry of `X` is an entry of the input. -/
theorem X_isReal (h0 : ∀ i, IsReal (m ((c : Thread nD τ).loc main_arg0) i)) (j : S4x2048x256.Idx) : IsReal (X m c j) := by
  unfold X shapeCast transpose
  exact h0 _

/-- Every query entry the region finds is an entry of `X`. -/
theorem query_isReal (h0 : ∀ i, IsReal (m ((c : Thread nD τ).loc main_arg0) i)) (i : S8192x256.Idx) :
    IsReal ((V m c main_v3 : S8192x256.Idx → EReal) i) := by
  rw [congrFun (query_eq m c) i]
  show IsReal (shapeCast S8192x256 (X m c) shapeCasts_S4x2048x256_S8192x256 i)
  unfold shapeCast
  exact X_isReal m c h0 _

/-- The weights the region finds are the launched weights. -/
theorem weights_isReal (h2 : ∀ i, IsReal (m ((c : Thread nD τ).loc main_arg2) i)) (i : S256x32000.Idx) :
    IsReal ((V m c main_v4 : S256x32000.Idx → EReal) i) := by
  rw [congrFun (weights_eq m c) i]
  exact h2 i

/-- The embedding table the region finds is the launched table. -/
theorem embed_isReal (h1 : ∀ i, IsReal (m ((c : Thread nD τ).loc main_arg1) i)) (i : S32000x1024.Idx) :
    IsReal ((V m c main_v5 : S32000x1024.Idx → EReal) i) := by
  rw [congrFun (embed_eq m c) i]
  exact h1 i

/-- Every entry of the bias row is an entry of the bias. -/
theorem bias_isReal (h3 : ∀ i, IsReal (m ((c : Thread nD τ).loc main_arg3) i)) (i : S1x32000.Idx) :
    IsReal ((V m c main_v6 : S1x32000.Idx → EReal) i) := by
  rw [congrFun (bias_eq m c) i]
  unfold shapeCast
  exact h3 _

/-- Query row `b · 2048 + l`, embedding column `d`: the quotient the recurrence ends in is the specification's mixture
    at `(b, l, d)` with the weighted sum divided once by the normaliser. -/
theorem kernel_row (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (b : Fin 4) (l : Fin 2048) (d : Fin 1024) :
    Ideal.div (run (blockScores (V m c main_v3) (V m c main_v4) (V m c main_v6) (b.val * 2048 + l.val)) (blockValues (V m c main_v5) d) 50).2.2
        (run (blockScores (V m c main_v3) (V m c main_v4) (V m c main_v6) (b.val * 2048 + l.val)) (blockValues (V m c main_v5) d) 50).2.1
      = Cert.Mixture.mixDeferredAt (X m c) (m ((c : Thread nD τ).loc main_arg2)) (m ((c : Thread nD τ).loc main_arg3))
          (m ((c : Thread nD τ).loc main_arg1)) b l d := by
  have hR : b.val * 2048 + l.val < 8192 := by omega
  have es : rowScore (V m c main_v3) (V m c main_v4) (V m c main_v6) (⟨b.val * 2048 + l.val, hR⟩ : Fin 8192)
      = Cert.Mixture.score (X m c) (m ((c : Thread nD τ).loc main_arg2)) (m ((c : Thread nD τ).loc main_arg3)) b l :=
    funext fun k => rowScore_eq_score m c b l k
  have ev : (fun k : Fin 32000 => (V m c main_v5 : S32000x1024.Idx → EReal) (ix2 k d))
      = Cert.Mixture.embCol (m ((c : Thread nD τ).loc main_arg1)) d :=
    funext fun k => congrFun (embed_eq m c) (ix2 k d)
  refine (row_closed (V m c main_v3) (V m c main_v4) (V m c main_v6) (V m c main_v5) (query_isReal m c h0)
    (weights_isReal m c h2) (bias_isReal m c h3) (embed_isReal m c h1) ⟨b.val * 2048 + l.val, hR⟩ d).trans ?_
  exact congrArg₂ attnDeferred es ev

end Cert.KernelIdeal.Row

end
-- ==== Proof.KernelFinal.lean ====
/-
  From the sweeps' last points to the result array, and the run.

  The output window is written back only at a sweep's last point, and the four sweeps' blocks (rows `r · 2048 … r · 2048 + 2047`)
  tile the [8192, 1024] result array; so after the region that array holds, at row `R` and column `d`, the recurrence's
  final weighted sum divided by its final normaliser for row `R`. The program's last operation splits the row axis back
  into (batch, position): the result at `(b, l, d)` is that array at row `b · 2048 + l`. With real inputs this is the
  specification's mixture with the weighted sum divided once by the normaliser.
-/
import proofs.«159708_j12429635355371_2_alg».proof.Proof.KernelFold
import proofs.«159708_j12429635355371_2_alg».proof.Proof.KernelCover
import proofs.«159708_j12429635355371_2_alg».proof.Proof.KernelRow
import proofs.«159708_j12429635355371_2_alg».proof.Proof.HostLayout
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.OnlineSoftmax Cert.KernelIdeal.Fold Cert.SoftmaxRow

variable (m : (ℓ : Loc nD τ sig) → Buf (Elt Ideal) ℓ) (ρ : Dev nD → PrngReg)

/-- The array the region leaves: at row `R`, column `d`, the recurrence's final quotient for that row and column. -/
def finalRows (c : Dev nD) : Buf (Elt Ideal) ((cfg0.win 4).arr.view.loc (c.tc : Thread nD τ)) :=
  fun i => Ideal.div (run (blockScores (V m c main_v3) (V m c main_v4) (V m c main_v6) (i 0).val) (blockValues (V m c main_v5) (i 1)) 50).2.2
    (run (blockScores (V m c main_v3) (V m c main_v4) (V m c main_v6) (i 0).val) (blockValues (V m c main_v5) (i 1)) 50).2.1

/-- What a sweep's last point writes back is its block of that array. -/
theorem flushed_eq (c : Dev nD) (t : Fin cfg0.N) (hf : (cfg0.win 4).flush t = true) :
    (dats m 0 c).flushed 4 t = ((cfg0.win 4).blk t).view.read (Elt Ideal) (finalRows m c) := by
  have h49 : t.val % 50 = 49 := (flush0_4 t).mp hf
  have hN : t.val < 200 := lt_of_lt_of_eq t.isLt N200
  show (cfg0.win 4).cut (grid0.coords t) ((dats m 0 c).after 4 t) = _
  rw [after0_4]
  refine funext fun (y : S2048x1024.Idx) => ?_
  obtain ⟨p, d, rfl⟩ : ∃ (p : Fin 2048) (d : Fin 1024), y = ix2 p d := ⟨y 0, y 1, eq_ix2 y⟩
  have hR : t.val / 50 * 2048 + p.val < 8192 := by have := p.isLt; omega
  refine (sweep_end m c t.val t.isLt h49 p d).trans ?_
  exact (Cover.read_block (F := Ideal) c (finalRows m c) t p d ⟨_, hR⟩ rfl).symm

/-- The sweeps' last points cover the array, so it ends holding `finalRows`. -/
theorem final_rows (c : Dev nD) : (dats m 0 c).arrAt 4 cfg0.N = finalRows m c :=
  (dats m 0 c).arrAt_eq_of_cover 4 (finalRows m c) (flushed_eq m c) (Cover.cover c)

/-- The program's result: the array with its row axis split into (batch, position). -/
def result (c : Dev nD) : Buf (Elt Ideal) ((c : Thread nD τ).loc main_v8) :=
  shapeCast S4x2048x1024 (finalRows m c) shapeCasts_S8192x1024_S4x2048x1024

/-- The run, read: the result at `result`, the arguments unchanged. -/
theorem run : θ_run defs (onTc (τ := τ) (main (F := Ideal))) ⟨m, fun _ => 0, ρ⟩ fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      have e := Cover.tail_eq m c
      rw [final_rows m c] at e
      exact ⟨((h c).2 main_v8 Cover.result_mem).trans e,
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c)⟩)
    (run_main m ρ)

/-- With real inputs the result at `(b, l, d)` is the specification's mixture, the weighted sum divided once. -/
theorem result_at (c : Dev nD)
    (h0 : ∀ i, IsReal (m ((c : Thread nD τ).loc main_arg0) i)) (h1 : ∀ i, IsReal (m ((c : Thread nD τ).loc main_arg1) i))
    (h2 : ∀ i, IsReal (m ((c : Thread nD τ).loc main_arg2) i)) (h3 : ∀ i, IsReal (m ((c : Thread nD τ).loc main_arg3) i))
    (b : Fin 4) (l : Fin 2048) (d : Fin 1024) :
    result m c (ix3 b l d) = Cert.Mixture.mixDeferredAt (HostLayout.X m c) (m ((c : Thread nD τ).loc main_arg2))
      (m ((c : Thread nD τ).loc main_arg3)) (m ((c : Thread nD τ).loc main_arg1)) b l d :=
  (HostLayout.rows_split (finalRows m c) b l d).trans (Row.kernel_row m c h0 h1 h2 h3 b l d)

end Cert.KernelIdeal.Final

end
-- ==== Proof.lean ====
/-
  The certificate's claims, assembled.

  The kernel computes softmax attention of 8192 query rows over 32000 tokens block by block: 50 token blocks of 640 per
  sweep, a running maximum, a running normaliser and a running weighted sum of embedding rows kept per row, the weighted
  sum divided by the normaliser once, at the sweep's last block. The reference computes the softmax weights whole,
  divides each by the normaliser, and then takes the weighted sum. On the extended reals the two agree when every input
  is a real number, which the precondition gives:
    · the block-by-block recurrence ends at (Σ_k exp(s_k - M) · E(k, d)) / (Σ_k exp(s_k - M)) with M the row's maximum,
      because exp(M₁ - M₂) · exp(s - M₁) = exp(s - M₂) and, at a sweep's first block, exp(-∞ - M) = 0;
    · a quotient by a nonzero real distributes over a finite sum of reals, so dividing the weighted sum once equals
      dividing every weight first.
  A change of float format is the identity on the extended reals, a matrix product into a zero accumulator is the plain
  sum of products, and both programs lay the input out by the same transpose and reshape.

  The three frames are the generated runs; the idealization rewrote nothing, so its claim is trivial; the value claim
  pairs the kernel's run, read at the specification's mixture, with the reference's run, read at the same.
-/
import proofs.«159708_j12429635355371_2_alg».proof.Defs
import proofs.«159708_j12429635355371_2_alg».proof.Proof.Gen.Kernel
import proofs.«159708_j12429635355371_2_alg».proof.Proof.Gen.Kernel.Skeleton
import proofs.«159708_j12429635355371_2_alg».proof.Proof.Gen.Kernel.Launch
import proofs.«159708_j12429635355371_2_alg».proof.Proof.Gen.Kernel.Points
import proofs.«159708_j12429635355371_2_alg».proof.Proof.Gen.Kernel.Frame
import proofs.«159708_j12429635355371_2_alg».proof.Proof.Gen.KernelIdeal
import proofs.«159708_j12429635355371_2_alg».proof.Proof.Gen.KernelIdeal.Skeleton
import proofs.«159708_j12429635355371_2_alg».proof.Proof.Gen.KernelIdeal.Launch
import proofs.«159708_j12429635355371_2_alg».proof.Proof.Gen.KernelIdeal.Points
import proofs.«159708_j12429635355371_2_alg».proof.Proof.Gen.KernelIdeal.Frame
import proofs.«159708_j12429635355371_2_alg».proof.Proof.Gen.ReferenceIdeal
import proofs.«159708_j12429635355371_2_alg».proof.Proof.Gen.ReferenceIdeal.Run
import proofs.«159708_j12429635355371_2_alg».proof.Proof.Gen.ReferenceIdeal.Read
import proofs.«159708_j12429635355371_2_alg».proof.Proof.Gen.Pre_finite_inputs
import proofs.«159708_j12429635355371_2_alg».proof.Proof.Spec
import proofs.«159708_j12429635355371_2_alg».proof.Proof.RefValue
import proofs.«159708_j12429635355371_2_alg».proof.Proof.Finite
import proofs.«159708_j12429635355371_2_alg».proof.Proof.KernelFinal
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs lay the input out by the same transpose and reshape. -/
theorem layout_eq (m : (ℓ : Loc Cert.KernelIdeal.nD Cert.KernelIdeal.τ Cert.KernelIdeal.sig) → Buf (Elt Ideal) ℓ)
    (c : Dev Cert.KernelIdeal.nD) :
    Cert.ReferenceIdeal.Read.val_main_v1 (F := Ideal)
      (m ((c.tc : Thread Cert.KernelIdeal.nD Cert.KernelIdeal.τ).loc Cert.KernelIdeal.main_arg0))
      = Cert.KernelIdeal.HostLayout.X m c := rfl

/-- From memories agreeing on real arguments, the kernel's result and the reference's are the same mixture: the
    kernel's with the weighted sum divided once, the reference's with every weight divided first. -/
theorem algebraic : Cert.algebraic_KernelIdeal_ReferenceIdeal := by
  intro m ρ m' ρ' hpre hagree
  refine ⟨fun c => Cert.KernelIdeal.Final.result m c, Cert.KernelIdeal.Final.run m ρ, ?_⟩
  refine (θ_run Cert.ReferenceIdeal.defs _ _).mono (fun _ h c => ⟨?_, (h c).2⟩)
    (Cert.ReferenceIdeal.Value.run (F := Ideal) m' ρ')
  obtain ⟨r0, r1, r2, r3⟩ := Cert.KernelIdeal.Finite.inputs_real m hpre c
  rw [(h c).1, Cert.ReferenceIdeal.Read.val_main_v17_eq, (hagree c).1, (hagree c).2.1, (hagree c).2.2.1, (hagree c).2.2.2]
  funext i
  obtain ⟨b, l, d, rfl⟩ : ∃ (b : Fin 4) (l : Fin 2048) (d : Fin 1024), i = ix3 b l d := ⟨i 0, i 1, i 2, eq_ix3 i⟩
  rw [Cert.ReferenceIdeal.RefValue.result_at]
  show _ = Cert.KernelIdeal.Final.result m c (ix3 b l d)
  rw [Cert.KernelIdeal.Final.result_at m c r0 r1 r2 r3 b l d, layout_eq m c]
  exact Cert.Mixture.mixNormalisedAt_eq_mixDeferredAt
    (Cert.KernelIdeal.Row.X_isReal m c r0) r2 r3 r1 b l d

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
